-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S512x256 : Shape := ⟨2, ![512, 256]⟩
abbrev S2048x256 : Shape := ⟨2, ![2048, 256]⟩
abbrev S512 : Shape := ⟨1, ![512]⟩
abbrev S256x2048 : Shape := ⟨2, ![256, 2048]⟩
abbrev S512x2048 : Shape := ⟨2, ![512, 2048]⟩

abbrev nBuf : Space → Nat
  | .hbm => 40
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S8192, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S512, .f32⟩
  | .local _ .vmem, ⟨5, _⟩ => ⟨S512, .f32⟩
  | .local _ .vmem, ⟨6, _⟩ => ⟨S512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  inb_S512_S512_0 : ∀ a, (![0] : Fin 1 → Nat) a + S512.size a ≤ S512.size a
  h_S512 : 0 < S512.numel
  shapeCasts_S512_S512 : S512.ShapeCasts S512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  iota_S512x2048_d0_w32 : S512x2048.Iotas .tc 32 [0]
  iota_S512x2048_d1_w32 : S512x2048.Iotas .tc 32 [1]
  reduces_S512x2048_S512 : S512x2048.Reduces [1] S512
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v17) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S8192x8192, .i32⟩
  | .hbm, ⟨73, _⟩ => ⟨S8192x8192, .i32⟩
  | .hbm, ⟨74, _⟩ => ⟨S_, .i32⟩
  | .hbm, ⟨75, _⟩ => ⟨S8192x8192, .i32⟩
  | .hbm, ⟨76, _⟩ => ⟨S8192x8192, .i32⟩
  | .hbm, ⟨77, _⟩ => ⟨S8192x8192, .i1⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_3 : Ref sig .tc := ⟨.hbm, 79, rfl⟩
abbrev main_v28 : Ref sig .tc := ⟨.hbm, 80, rfl⟩
abbrev main_v29 : Ref sig .tc := ⟨.hbm, 81, rfl⟩
abbrev main_cst_4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_5 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_6 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_7 : Ref sig .tc := ⟨.hbm, 96, rfl⟩
abbrev main_v41 : Ref sig .tc := ⟨.hbm, 97, rfl⟩
abbrev main_cst_8 : Ref sig .tc := ⟨.hbm, 98, rfl⟩
abbrev main_v42 : Ref sig .tc := ⟨.hbm, 99, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  bcast_S_S8192 : S_.BroadcastsInDim S8192 (![] : Fin 0 → Fin S8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.K.Runs.lean ====
/-
  The kernel's body, point by point: what its four conditionals test, at which grid points each holds, and where the
  output window is idle. The grid is 16 row tiles by 4 column tiles, the column tile moving fastest: point t is row tile
  t / 4 and column tile t % 4. The accumulator is reset at column tile 0, added to at every column tile (through a mask
  where the tile meets the diagonal, that is where row tile / 4 = column tile), and copied out at column tile 3.
-/
import proofs.«154140_j43344809951557_2_alg».proof.Proof.Gen.Kernel.Launch
import proofs.«154140_j43344809951557_2_alg».proof.Proof.Gen.Kernel.Skeleton
import proofs.«154140_j43344809951557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Entry

/-! ## The four conditions, as the body computes them from the grid coordinates -/

/-- "column tile = 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "the tile's row range and column range overlap": the tile meets the diagonal. -/
abbrev cond0_1 (i : grid0.Coords) : Prop := (Scalar.cmpi .ne (Scalar.extui (Scalar.andi (Scalar.cmpi .slt (Scalar.muli (BitVec.ofNat 32 (i 0).val) 512#32) (Scalar.addi (Scalar.muli (BitVec.ofNat 32 (i 1).val) 2048#32) 2048#32)) (Scalar.cmpi .slt (Scalar.muli (BitVec.ofNat 32 (i 1).val) 2048#32) (Scalar.addi (Scalar.muli (BitVec.ofNat 32 (i 0).val) 512#32) 512#32)))) 0#32) = 1#1
theorem hcond0_1 : ∀ t : Fin cfg0.N, cond0_1 (grid0.coords t) ↔ t.val / 16 = t.val % 4 :=
  (by decide +kernel : ∀ t : Fin grid0.N, cond0_1 (grid0.coords t) ↔ t.val / 16 = t.val % 4)

/-- Its negation, as the body computes it (exclusive-or with true). -/
abbrev cond0_2 (i : grid0.Coords) : Prop := (Scalar.cmpi .ne (Scalar.extui (Scalar.xori (Scalar.andi (Scalar.cmpi .slt (Scalar.muli (BitVec.ofNat 32 (i 0).val) 512#32) (Scalar.addi (Scalar.muli (BitVec.ofNat 32 (i 1).val) 2048#32) 2048#32)) (Scalar.cmpi .slt (Scalar.muli (BitVec.ofNat 32 (i 1).val) 2048#32) (Scalar.addi (Scalar.muli (BitVec.ofNat 32 (i 0).val) 512#32) 512#32))) 1#1)) 0#32) = 1#1
theorem hcond0_2 : ∀ t : Fin cfg0.N, cond0_2 (grid0.coords t) ↔ ¬ (t.val / 16 = t.val % 4) :=
  (by decide +kernel : ∀ t : Fin grid0.N, cond0_2 (grid0.coords t) ↔ ¬ (t.val / 16 = t.val % 4))

/-- "column tile = 3": the accumulator is copied to the output block. -/
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from column tile 3 the output window is idle and is not written back. -/
theorem idleAt0_2 : ∀ t : Fin cfg0.N, ¬cond0_3 (grid0.coords t) → cfg0.idle 2 (grid0.coords t) = true := by decide +kernel
theorem noFlush0_2 : ∀ t : Fin cfg0.N, ¬cond0_3 (grid0.coords t) → (cfg0.win 2).flush t = false := by decide +kernel
theorem liveAt0_2 : ∀ t : Fin cfg0.N, cond0_3 (grid0.coords t) → cfg0.idle 2 (grid0.coords t) = false := by decide +kernel

/-! ## The memrefs the body is called with -/

abbrev VO0_2 : View sig .tc .vmem S512 .f32 := (Memref.whole cc0_stg2_0 : Memref sig .tc .vmem S512 .f32).view
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
/-- The accumulator: a scratch buffer of the kernel's own, carried from point to point. -/
abbrev scM0_0 : Memref sig .tc .vmem S512 .f32 := Memref.whole cc0_scratch0
abbrev VS0_0 : View sig .tc .vmem S512 .f32 := scM0_0.view

/-- What the region's invariant holds between points when nothing is said of the accumulator: the accumulator whole
    at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.Run.lean ====
/-
  The kernel body run symbolically, one control case at a time: which of its conditionals fire is fixed by the case, the
  loads return what the buffers hold, and each store is recorded as a piece written over the buffer it targets.
-/
import proofs.«154140_j43344809951557_2_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body's run in case A (accumulator reset; masked row sums; output untouched): from the two input
    blocks, the output buffer and the accumulator, to the same with the accumulator overwritten by the pieces the
    run finds. -/
noncomputable def kernelRun0_A (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case B (accumulator carried; plain row sums; output untouched): from the two input
    blocks, the output buffer and the accumulator, to the same with the accumulator overwritten by the pieces the
    run finds. -/
noncomputable def kernelRun0_B (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case C (accumulator carried; plain row sums; accumulator copied out): from the two input
    blocks, the output buffer and the accumulator, to the same with the accumulator and the output buffer overwritten by the pieces the
    run finds. -/
noncomputable def kernelRun0_C (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body's run in case D (accumulator carried; masked row sums; output untouched): from the two input
    blocks, the output buffer and the accumulator, to the same with the accumulator overwritten by the pieces the
    run finds. -/
noncomputable def kernelRun0_D (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case E (accumulator reset; plain row sums; output untouched): from the two input
    blocks, the output buffer and the accumulator, to the same with the accumulator overwritten by the pieces the
    run finds. -/
noncomputable def kernelRun0_E (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case F (accumulator carried; masked row sums; accumulator copied out): from the two input
    blocks, the output buffer and the accumulator, to the same with the accumulator and the output buffer overwritten by the pieces the
    run finds. -/
noncomputable def kernelRun0_F (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Data.lean ====
/-
  What the output buffer and the accumulator hold after each grid point, by recursion on the point: at column tile 0 the
  accumulator restarts from zero, at the other column tiles it continues from what the point before left, and at column
  tile 3 the output buffer receives it. The proof data of the pipeline (the two input windows read one array, each
  through half of the full share), the region's invariant (the accumulator at the contents just described), and the body
  obligation at every point.
-/
import proofs.«154140_j43344809951557_2_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output buffer (nothing is stored: a placeholder nothing consults). -/
def out0_A_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) : Vec F S512 .f32 :=
  VO0_2.read (Elt F) (VO0_2.writes (Elt F) VO0_2.junk (kernelRun0_A (F := F) c i arg2 harg2 arg3 harg3 arg4 harg4 arg5 harg5 hc0 hc1 hc2 hc3 x0 x1).1)

/-- In case A the stores into the accumulator cover it. -/
theorem scover0_A_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) (y : S512.Idx) :
    ∃ pc ∈ (kernelRun0_A (F := F) c i arg2 harg2 arg3 harg3 arg4 harg4 arg5 harg5 hc0 hc1 hc2 hc3 x0 x1).2.1, y ∈ pc.1.set :=
  View.cover_of_tiledL (kernelRun0_A (F := F) c i arg2 harg2 arg3 harg3 arg4 harg4 arg5 harg5 hc0 hc1 hc2 hc3 x0 x1).2.1 S512.size (by sl_kernel_rfl) y

/-- What case A leaves in the accumulator. -/
def sout0_A_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) : Vec F S512 .f32 :=
  VS0_0.read (Elt F) (VS0_0.writes (Elt F) VS0_0.junk (kernelRun0_A (F := F) c i arg2 harg2 arg3 harg3 arg4 harg4 arg5 harg5 hc0 hc1 hc2 hc3 x0 x1).2.1)

/-- What case B leaves in the output buffer (nothing is stored: a placeholder nothing consults). -/
def out0_B_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_B (F := F) c i arg2 harg2 arg3 harg3 arg4 harg4 arg5 harg5 hc0 hc1 hc2 hc3 x0 x1 xs0).1)

/-- In case B the stores into the accumulator cover it. -/
theorem scover0_B_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) (y : S512.Idx) :
    ∃ pc ∈ (kernelRun0_B (F := F) c i arg2 harg2 arg3 harg3 arg4 harg4 arg5 harg5 hc0 hc1 hc2 hc3 x0 x1 xs0).2.1, y ∈ pc.1.set :=
  View.cover_of_tiledL (kernelRun0_B (F := F) c i arg2 harg2 arg3 harg3 arg4 harg4 arg5 harg5 hc0 hc1 hc2 hc3 x0 x1 xs0).2.1 S512.size (by sl_kernel_rfl) y

/-- What case B leaves in the accumulator. -/
def sout0_B_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_B (F := F) c i arg2 harg2 arg3 harg3 arg4 harg4 arg5 harg5 hc0 hc1 hc2 hc3 x0 x1 xs0).2.1)

/-- In case C the one store into the output buffer covers it. -/
theorem cover0_C_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) (y : S512.Idx) :
    ∃ pc ∈ (kernelRun0_C (F := F) c i arg2 harg2 arg3 harg3 arg4 harg4 arg5 harg5 hc0 hc1 hc2 hc3 x0 x1 xs0).1, y ∈ pc.1.set :=
  View.cover_of_tiledL (kernelRun0_C (F := F) c i arg2 harg2 arg3 harg3 arg4 harg4 arg5 harg5 hc0 hc1 hc2 hc3 x0 x1 xs0).1 S512.size (by sl_kernel_rfl) y

/-- What case C leaves in the output buffer. -/
def out0_C_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_C (F := F) c i arg2 harg2 arg3 harg3 arg4 harg4 arg5 harg5 hc0 hc1 hc2 hc3 x0 x1 xs0).1)

/-- In case C the stores into the accumulator cover it. -/
theorem scover0_C_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) (y : S512.Idx) :
    ∃ pc ∈ (kernelRun0_C (F := F) c i arg2 harg2 arg3 harg3 arg4 harg4 arg5 harg5 hc0 hc1 hc2 hc3 x0 x1 xs0).2.1, y ∈ pc.1.set :=
  View.cover_of_tiledL (kernelRun0_C (F := F) c i arg2 harg2 arg3 harg3 arg4 harg4 arg5 harg5 hc0 hc1 hc2 hc3 x0 x1 xs0).2.1 S512.size (by sl_kernel_rfl) y

/-- What case C leaves in the accumulator. -/
def sout0_C_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_C (F := F) c i arg2 harg2 arg3 harg3 arg4 harg4 arg5 harg5 hc0 hc1 hc2 hc3 x0 x1 xs0).2.1)

/-- What case D leaves in the output buffer (nothing is stored: a placeholder nothing consults). -/
def out0_D_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_D (F := F) c i arg2 harg2 arg3 harg3 arg4 harg4 arg5 harg5 hc0 hc1 hc2 hc3 x0 x1 xs0).1)

/-- In case D the stores into the accumulator cover it. -/
theorem scover0_D_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) (y : S512.Idx) :
    ∃ pc ∈ (kernelRun0_D (F := F) c i arg2 harg2 arg3 harg3 arg4 harg4 arg5 harg5 hc0 hc1 hc2 hc3 x0 x1 xs0).2.1, y ∈ pc.1.set :=
  View.cover_of_tiledL (kernelRun0_D (F := F) c i arg2 harg2 arg3 harg3 arg4 harg4 arg5 harg5 hc0 hc1 hc2 hc3 x0 x1 xs0).2.1 S512.size (by sl_kernel_rfl) y

/-- What case D leaves in the accumulator. -/
def sout0_D_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_D (F := F) c i arg2 harg2 arg3 harg3 arg4 harg4 arg5 harg5 hc0 hc1 hc2 hc3 x0 x1 xs0).2.1)

/-- What case E leaves in the output buffer (nothing is stored: a placeholder nothing consults). -/
def out0_E_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) : Vec F S512 .f32 :=
  VO0_2.read (Elt F) (VO0_2.writes (Elt F) VO0_2.junk (kernelRun0_E (F := F) c i arg2 harg2 arg3 harg3 arg4 harg4 arg5 harg5 hc0 hc1 hc2 hc3 x0 x1).1)

/-- In case E the stores into the accumulator cover it. -/
theorem scover0_E_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) (y : S512.Idx) :
    ∃ pc ∈ (kernelRun0_E (F := F) c i arg2 harg2 arg3 harg3 arg4 harg4 arg5 harg5 hc0 hc1 hc2 hc3 x0 x1).2.1, y ∈ pc.1.set :=
  View.cover_of_tiledL (kernelRun0_E (F := F) c i arg2 harg2 arg3 harg3 arg4 harg4 arg5 harg5 hc0 hc1 hc2 hc3 x0 x1).2.1 S512.size (by sl_kernel_rfl) y

/-- What case E leaves in the accumulator. -/
def sout0_E_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) : Vec F S512 .f32 :=
  VS0_0.read (Elt F) (VS0_0.writes (Elt F) VS0_0.junk (kernelRun0_E (F := F) c i arg2 harg2 arg3 harg3 arg4 harg4 arg5 harg5 hc0 hc1 hc2 hc3 x0 x1).2.1)

/-- In case F the one store into the output buffer covers it. -/
theorem cover0_F_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) (y : S512.Idx) :
    ∃ pc ∈ (kernelRun0_F (F := F) c i arg2 harg2 arg3 harg3 arg4 harg4 arg5 harg5 hc0 hc1 hc2 hc3 x0 x1 xs0).1, y ∈ pc.1.set :=
  View.cover_of_tiledL (kernelRun0_F (F := F) c i arg2 harg2 arg3 harg3 arg4 harg4 arg5 harg5 hc0 hc1 hc2 hc3 x0 x1 xs0).1 S512.size (by sl_kernel_rfl) y

/-- What case F leaves in the output buffer. -/
def out0_F_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_F (F := F) c i arg2 harg2 arg3 harg3 arg4 harg4 arg5 harg5 hc0 hc1 hc2 hc3 x0 x1 xs0).1)

/-- In case F the stores into the accumulator cover it. -/
theorem scover0_F_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) (y : S512.Idx) :
    ∃ pc ∈ (kernelRun0_F (F := F) c i arg2 harg2 arg3 harg3 arg4 harg4 arg5 harg5 hc0 hc1 hc2 hc3 x0 x1 xs0).2.1, y ∈ pc.1.set :=
  View.cover_of_tiledL (kernelRun0_F (F := F) c i arg2 harg2 arg3 harg3 arg4 harg4 arg5 harg5 hc0 hc1 hc2 hc3 x0 x1 xs0).2.1 S512.size (by sl_kernel_rfl) y

/-- What case F leaves in the accumulator. -/
def sout0_F_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_F (F := F) c i arg2 harg2 arg3 harg3 arg4 harg4 arg5 harg5 hc0 hc1 hc2 hc3 x0 x1 xs0).2.1)

section Entry
variable (V : (c : Dev nD) → (b : Ref sig .tc) → Buf (Elt F) ((c : Thread nD τ).loc b))

/-- Case A at point `t`: what it leaves in the output buffer and in the accumulator. -/
def at_A (c : Dev nD) (t : Fin cfg0.N) (h0 : t.val % 4 = 0) (h1 : t.val / 16 = t.val % 4) (h3 : ¬t.val % 4 = 3) : Vec F S512 .f32 × Vec F S512 .f32 :=
  (out0_A_2 c (grid0.coords t) (ms0_0 t) (hs0_0 t) (ms0_1 t) (hs0_1 t) (ms0_2 t) (hs0_2 t) scM0_0 (Memref.isWhole_whole _) ((hcond0_0 t).mpr h0) ((hcond0_1 t).mpr h1) (fun h => (hcond0_2 t).mp h h1) (fun h => h3 ((hcond0_3 t).mp h)) (iblk V c 0 t) (iblk V c 1 t), sout0_A_0 c (grid0.coords t) (ms0_0 t) (hs0_0 t) (ms0_1 t) (hs0_1 t) (ms0_2 t) (hs0_2 t) scM0_0 (Memref.isWhole_whole _) ((hcond0_0 t).mpr h0) ((hcond0_1 t).mpr h1) (fun h => (hcond0_2 t).mp h h1) (fun h => h3 ((hcond0_3 t).mp h)) (iblk V c 0 t) (iblk V c 1 t))

/-- Case B at point `t`: what it leaves in the output buffer and in the accumulator. -/
def at_B (c : Dev nD) (t : Fin cfg0.N) (h0 : ¬t.val % 4 = 0) (h1 : ¬t.val / 16 = t.val % 4) (h3 : ¬t.val % 4 = 3) (xs : Vec F S512 .f32) : Vec F S512 .f32 × Vec F S512 .f32 :=
  (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) (fun h => h3 ((hcond0_3 t).mp h)) (iblk V c 0 t) (iblk V c 1 t) xs, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) (fun h => h3 ((hcond0_3 t).mp h)) (iblk V c 0 t) (iblk V c 1 t) xs)

/-- Case C at point `t`: what it leaves in the output buffer and in the accumulator. -/
def at_C (c : Dev nD) (t : Fin cfg0.N) (h0 : ¬t.val % 4 = 0) (h1 : ¬t.val / 16 = t.val % 4) (h3 : t.val % 4 = 3) (xs : Vec F S512 .f32) : Vec F S512 .f32 × Vec F S512 .f32 :=
  (out0_C_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) ((hcond0_3 t).mpr h3) (iblk V c 0 t) (iblk V c 1 t) xs, sout0_C_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) ((hcond0_3 t).mpr h3) (iblk V c 0 t) (iblk V c 1 t) xs)

/-- Case D at point `t`: what it leaves in the output buffer and in the accumulator. -/
def at_D (c : Dev nD) (t : Fin cfg0.N) (h0 : ¬t.val % 4 = 0) (h1 : t.val / 16 = t.val % 4) (h3 : ¬t.val % 4 = 3) (xs : Vec F S512 .f32) : Vec F S512 .f32 × Vec F S512 .f32 :=
  (out0_D_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) (fun h => h3 ((hcond0_3 t).mp h)) (iblk V c 0 t) (iblk V c 1 t) xs, sout0_D_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) (fun h => h3 ((hcond0_3 t).mp h)) (iblk V c 0 t) (iblk V c 1 t) xs)

/-- Case E at point `t`: what it leaves in the output buffer and in the accumulator. -/
def at_E (c : Dev nD) (t : Fin cfg0.N) (h0 : t.val % 4 = 0) (h1 : ¬t.val / 16 = t.val % 4) (h3 : ¬t.val % 4 = 3) : Vec F S512 .f32 × Vec F S512 .f32 :=
  (out0_E_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) ((hcond0_2 t).mpr h1) (fun h => h3 ((hcond0_3 t).mp h)) (iblk V c 0 t) (iblk V c 1 t), sout0_E_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) ((hcond0_2 t).mpr h1) (fun h => h3 ((hcond0_3 t).mp h)) (iblk V c 0 t) (iblk V c 1 t))

/-- Case F at point `t`: what it leaves in the output buffer and in the accumulator. -/
def at_F (c : Dev nD) (t : Fin cfg0.N) (h0 : ¬t.val % 4 = 0) (h1 : t.val / 16 = t.val % 4) (h3 : t.val % 4 = 3) (xs : Vec F S512 .f32) : Vec F S512 .f32 × Vec F S512 .f32 :=
  (out0_F_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) ((hcond0_3 t).mpr h3) (iblk V c 0 t) (iblk V c 1 t) xs, sout0_F_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) ((hcond0_3 t).mpr h3) (iblk V c 0 t) (iblk V c 1 t) xs)

/-- THE ACCUMULATION: the output buffer's and the accumulator's contents after the body at position `n`. -/
def outsAt0 (c : Dev nD) : (n : ℕ) → n < cfg0.N → Vec F S512 .f32 × Vec F S512 .f32
  | 0, hn => at_A V c ⟨0, hn⟩ (Nat.zero_mod _) (by decide : (0 / 16 : ℕ) = 0 % 4) (by decide : ¬ (0 % 4 : ℕ) = 3)
  | n + 1, hn =>
    if h0 : (n + 1) % 4 = 0 then
      if h1 : (n + 1) / 16 = (n + 1) % 4 then at_A V c ⟨n + 1, hn⟩ h0 h1 (show ¬ (n + 1) % 4 = 3 by omega)
      else at_E V c ⟨n + 1, hn⟩ h0 h1 (show ¬ (n + 1) % 4 = 3 by omega)
    else if h3 : (n + 1) % 4 = 3 then
      if h1 : (n + 1) / 16 = (n + 1) % 4 then at_F V c ⟨n + 1, hn⟩ h0 h1 h3 (outsAt0 c n (Nat.lt_of_succ_lt hn)).2
      else at_C V c ⟨n + 1, hn⟩ h0 h1 h3 (outsAt0 c n (Nat.lt_of_succ_lt hn)).2
    else
      if h1 : (n + 1) / 16 = (n + 1) % 4 then at_D V c ⟨n + 1, hn⟩ h0 h1 h3 (outsAt0 c n (Nat.lt_of_succ_lt hn)).2
      else at_B V c ⟨n + 1, hn⟩ h0 h1 h3 (outsAt0 c n (Nat.lt_of_succ_lt hn)).2

theorem outsAt0_A (c : Dev nD) (t : Fin cfg0.N) (h0 : t.val % 4 = 0) (h1 : t.val / 16 = t.val % 4) (h3 : ¬t.val % 4 = 3) :
    outsAt0 V c t.val t.isLt = at_A V c t h0 h1 h3 := by
  obtain ⟨n, hn⟩ := t
  cases n with
  | zero => exact rfl
  | succ n => exact (dif_pos h0).trans ((dif_pos h1).trans rfl)

theorem outsAt0_B (c : Dev nD) (t : Fin cfg0.N) (h0 : ¬t.val % 4 = 0) (h1 : ¬t.val / 16 = t.val % 4) (h3 : ¬t.val % 4 = 3) :
    outsAt0 V c t.val t.isLt = at_B V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans ((dif_neg h1).trans rfl))

theorem outsAt0_C (c : Dev nD) (t : Fin cfg0.N) (h0 : ¬t.val % 4 = 0) (h1 : ¬t.val / 16 = t.val % 4) (h3 : t.val % 4 = 3) :
    outsAt0 V c t.val t.isLt = at_C V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans ((dif_neg h1).trans rfl))

theorem outsAt0_D (c : Dev nD) (t : Fin cfg0.N) (h0 : ¬t.val % 4 = 0) (h1 : t.val / 16 = t.val % 4) (h3 : ¬t.val % 4 = 3) :
    outsAt0 V c t.val t.isLt = at_D V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans ((dif_pos h1).trans rfl))

theorem outsAt0_E (c : Dev nD) (t : Fin cfg0.N) (h0 : t.val % 4 = 0) (h1 : ¬t.val / 16 = t.val % 4) (h3 : ¬t.val % 4 = 3) :
    outsAt0 V c t.val t.isLt = at_E V c t h0 h1 h3 := by
  obtain ⟨n, hn⟩ := t
  cases n with
  | zero => exact absurd (by decide : (0 / 16 : ℕ) = 0 % 4) h1
  | succ n => exact (dif_pos h0).trans ((dif_neg h1).trans rfl)

theorem outsAt0_F (c : Dev nD) (t : Fin cfg0.N) (h0 : ¬t.val % 4 = 0) (h1 : t.val / 16 = t.val % 4) (h3 : t.val % 4 = 3) :
    outsAt0 V c t.val t.isLt = at_F V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans ((dif_pos h1).trans rfl))

/-- The region's invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ (∃ r, prngReg c r)) := by
  cases n with
  | zero => exact absurd rfl hz
  | succ n => rfl

/-- The proof data: the arrays as the region finds them; after the body each input's buffer at its block and the
    output's at `outsAt0`; the two windows onto the one input array each hold half of it; nothing owed. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats V 0 c).A w = V c (Pipeline.arrRef spec0 w) := by
  dsimp only [dats]

theorem PhiS_castSucc (c : Dev nD) (t : Fin cfg0.N) :
    (dats V 0 c).Φ t.castSucc = PhiS V c t.val (Nat.le_of_lt t.isLt) := by
  dsimp only [dats]; simp only [Fin.coe_castSucc]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = (outsAt0 V c t.val t.isLt).1 := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d

/-- What the body is called with at point `t`, -/
def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t)

set_option maxHeartbeats 8000000 in
/-- The body at any point: the closed forms of the conditions say which case the point is in, and that case's run
    applies; the invariant hands the body the accumulator and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dats V 0 c).owesAt () t.succ = (dats V 0 c).owesAt () t.castSucc from rfl]
  rw [show (dats V 0 c).Φ t.succ = PhiS V c (t.val + 1) t.isLt from rfl, PhiS_succ]
  have hN : t.val < 64 := lt_of_lt_of_eq t.isLt (show cfg0.N = 64 from N_0)
  by_cases h0 : t.val % 4 = 0
  · have h3 : ¬ t.val % 4 = 3 := by omega
    by_cases h1 : t.val / 16 = t.val % 4
    · rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [Dat.leavesExact_idle (dats V 0 c) 2 t (idleAt0_2 t (fun h => h3 ((hcond0_3 t).mp h))) (noFlush0_2 t (fun h => h3 ((hcond0_3 t).mp h)))]
      rw [outsAt0_A V c t h0 h1 h3]
      unfold at_A sout0_A_0; (try dsimp only)
      by_cases hz : t.val = 0
      · rw [PhiS_castSucc V c t, PhiS_zero V c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) ((hcond0_1 t).mpr h1) (fun h => (hcond0_2 t).mp h h1) (fun h => h3 ((hcond0_3 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) ((hcond0_1 t).mpr h1) (fun h => (hcond0_2 t).mp h h1) (fun h => h3 ((hcond0_3 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        iexists _; iexact H2
    · rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [Dat.leavesExact_idle (dats V 0 c) 2 t (idleAt0_2 t (fun h => h3 ((hcond0_3 t).mp h))) (noFlush0_2 t (fun h => h3 ((hcond0_3 t).mp h)))]
      rw [outsAt0_E V c t h0 h1 h3]
      unfold at_E sout0_E_0; (try dsimp only)
      have hz : t.val ≠ 0 := by omega
      rw [PhiS_castSucc V c t, PhiS_pos V c _ _ hz]
      iintro ⟨⟨HS0, Hg⟩, Ho, ⟨%d0, H0⟩, ⟨%d1, H1⟩, ⟨%d2, H2⟩⟩
      iapply ((kernelRun0_E c (grid0.coords t) _ _ _ _ _ _ _ _ ((hcond0_0 t).mpr h0) (fun h => h1 ((hcond0_1 t).mp h)) ((hcond0_2 t).mpr h1) (fun h => h3 ((hcond0_3 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_E_0 c _ _ _ _ _ _ _ _ _ _ _ _ _ _ _)
        iexact Hg
      isplitl [Ho]; · iexact Ho
      isplitl [H0]; · iexact H0
      isplitl [H1]; · iexact H1
      iexists _; iexact H2
  · by_cases h3 : t.val % 4 = 3
    · by_cases h1 : t.val / 16 = t.val % 4
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [show (dats V 0 c).leavesExact 2 t = owns (c : Thread nD τ) (ms0_2 t) fullShare ((dats V 0 c).after 2 t) from by
          unfold Dat.leavesExact; rw [liveAt0_2 t ((hcond0_3 t).mpr h3)], after0_2]
        rw [outsAt0_F V c t h0 h1 h3]
        unfold at_F out0_F_2 sout0_F_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_F c (grid0.coords t) _ _ _ _ _ _ _ _ (fun h => h0 ((hcond0_0 t).mp h)) ((hcond0_1 t).mpr h1) (fun h => (hcond0_2 t).mp h h1) ((hcond0_3 t).mpr h3) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_F_0 c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_F_2 c _ _ _ _ _ _ _ _ _ _ _ _ _ _ _ _)
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [show (dats V 0 c).leavesExact 2 t = owns (c : Thread nD τ) (ms0_2 t) fullShare ((dats V 0 c).after 2 t) from by
          unfold Dat.leavesExact; rw [liveAt0_2 t ((hcond0_3 t).mpr h3)], after0_2]
        rw [outsAt0_C V c t h0 h1 h3]
        unfold at_C out0_C_2 sout0_C_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) (fun h => h1 ((hcond0_1 t).mp h)) ((hcond0_2 t).mpr h1) ((hcond0_3 t).mpr h3) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _)
    · by_cases h1 : t.val / 16 = t.val % 4
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [Dat.leavesExact_idle (dats V 0 c) 2 t (idleAt0_2 t (fun h => h3 ((hcond0_3 t).mp h))) (noFlush0_2 t (fun h => h3 ((hcond0_3 t).mp h)))]
        rw [outsAt0_D V c t h0 h1 h3]
        unfold at_D sout0_D_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_D c (grid0.coords t) _ _ _ _ _ _ _ _ (fun h => h0 ((hcond0_0 t).mp h)) ((hcond0_1 t).mpr h1) (fun h => (hcond0_2 t).mp h h1) (fun h => h3 ((hcond0_3 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_D_0 c _ _ _ _ _ _ _ _ _ _ _ _ _ _ _ _)
          iexact Hg
        isplitl [Ho]; · iexact Ho
        isplitl [H0]; · iexact H0
        isplitl [H1]; · iexact H1
        iexists _; iexact H2
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [Dat.leavesExact_idle (dats V 0 c) 2 t (idleAt0_2 t (fun h => h3 ((hcond0_3 t).mp h))) (noFlush0_2 t (fun h => h3 ((hcond0_3 t).mp h)))]
        rw [outsAt0_B V c t h0 h1 h3]
        unfold at_B sout0_B_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) ((hcond0_2 t).mpr h1) (fun h => h3 ((hcond0_3 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation (c : Dev nD) : BodyObligation (dats (F := F) V 0 c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After the last point the invariant gives the same back: the accumulator's contents are forgotten. -/
theorem hout (c : Dev nD) : (dats V 0 c).Φ (Fin.last cfg0.N) ⊢ Pipeline.ΦA spec0 c := by
  have ht : (Fin.last cfg0.N).val ≠ 0 := by rw [Fin.val_last]; have : cfg0.N = 64 := N_0; omega
  rw [show (dats V 0 c).Φ (Fin.last cfg0.N) = PhiS V c (Fin.last cfg0.N).val (Nat.le_of_lt_succ (Fin.last cfg0.N).isLt) from rfl, PhiS_pos V c _ _ ht, PhiA0_eq]
  iintro ⟨HS0, Hg⟩
  isplitl [HS0]
  · iexists _; iexact HS0
  iexact Hg

end Entry

end Cert.Kernel.Hand

end
-- ==== Proof.K.Main.lean ====
/-
  The whole program as three stretches: the host operations that normalise the rows and stack them, the kernel region,
  and the host operations that turn the denominators into the mean loss. The two input windows of the region read ONE
  array (the stacked rows), so at the region's entry that array's ownership is split in two halves, one per window, and
  joined again at the exit; the output window owns the denominators' array outright. The run ends with every buffer at a
  named valuation: the launch memory pushed through the first stretch, the denominators' array replaced by what the
  pipeline leaves, and the result pushed through the last stretch.
-/
import proofs.«154140_j43344809951557_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The windows stand on two arrays: the stacked rows (twice) and the denominators. -/
theorem image_arr : Finset.univ.image (Pipeline.arrRef spec0) = {main_v17, main_v18} := by decide

theorem share_0 (c : Dev nD) : (dats V 0 c).share 0 = fullShare.left := rfl
theorem share_1 (c : Dev nD) : (dats V 0 c).share 1 = fullShare.right := rfl
theorem share_2 (c : Dev nD) : (dats V 0 c).share 2 = fullShare := rfl

/-- The two arrays behind the windows, each whole. -/
theorem arrBufs_eq (c : Dev nD) (V' : (b : Ref sig .tc) → Buf (Elt F) ((c : Thread nD τ).loc b)) :
    (Pipeline.arrBufs spec0 c V' : sProp 𝕄)
      = iprop((((c : Thread nD τ).loc main_v17) ↦{fullShare} V' main_v17) ∗ (((c : Thread nD τ).loc main_v18) ↦{fullShare} V' main_v18)) := by
  unfold Pipeline.arrBufs
  rw [image_arr, BI.bigSep_insert (by decide), BI.bigSep_singleton]
  try rfl

/-- The three windows' arrays: the stacked rows held in two halves, the denominators whole. -/
theorem arrays_eq3 (c : Dev nD) (Fn : (w : Fin cfg0.W) → Buf (Elt F) ((cfg0.win w).arr.view.loc (c : Thread nD τ))) :
    ((dats V 0 c).arrays Fn : sProp 𝕄)
      = iprop((((c : Thread nD τ).loc main_v17) ↦{fullShare.left} Fn 0) ∗ (((c : Thread nD τ).loc main_v17) ↦{fullShare.right} Fn 1)
          ∗ (((c : Thread nD τ).loc main_v18) ↦{fullShare} Fn 2)) := by
  unfold Dat.arrays
  rw [bigSep_W0, (arr_whole0 0).set_eq_univ, (arr_whole0 2).set_eq_univ, share_0, share_1, share_2]
  try rfl

/-- ENTRY: the two arrays, each whole, are the three windows' arrays: the stacked rows' ownership halved. -/
theorem arrays_of_arrBufs (c : Dev nD) :
    (Pipeline.arrBufs spec0 c (V c) : sProp 𝕄) ⊢ (dats V 0 c).arrays ((dats V 0 c).arrAt · 0) := by
  rw [arrBufs_eq, arrays_eq3]
  iintro ⟨H17, H18⟩
  ihave H := (pointsTo_share (PosShare.mem_left_op_right fullShare)).1 $$ H17
  icases H with ⟨Hl, Hr⟩
  isplitl [Hl]; · iexact Hl
  isplitl [Hr]; · iexact Hr
  iexact H18

theorem entry_split (c : Dev nD) :
    (unscopedBufs c (V c) : sProp 𝕄) ⊢ iprop((dats V 0 c).arrays ((dats V 0 c).arrAt · 0) ∗ Pipeline.unscopedRest spec0 c (V c)) := by
  rw [Pipeline.unscopedBufs_split₀ cfgs 0 winFacts₀0.arr_unscoped c (V c)]
  exact sep_mono (arrays_of_arrBufs V c) .rfl

/-- EXIT: the halves joined; the stacked rows as they were, the denominators at what the pipeline leaves. -/
theorem exit_join (c : Dev nD) (V' : (b : Ref sig .tc) → Buf (Elt F) ((c : Thread nD τ).loc b))
    (h17 : V' main_v17 = V c main_v17) (h18 : V' main_v18 = (dats V 0 c).arrAt 2 cfg0.N)
    (hrest : ∀ b, b ∉ Finset.univ.image (Pipeline.arrRef spec0) → V' b = V c b) :
    iprop((dats V 0 c).arrays ((dats V 0 c).arrAt · cfg0.N) ∗ Pipeline.unscopedRest spec0 c (V c)) ⊢ (unscopedBufs c V' : sProp 𝕄) := by
  rw [Pipeline.unscopedBufs_split₀ cfgs 0 winFacts₀0.arr_unscoped c V']
  refine sep_mono ?_ (Entails.of_eq ?_)
  · rw [arrBufs_eq, arrays_eq3, h17, h18]
    beta_reduce
    rw [(dats V 0 c).arrAt_in 0 rfl cfg0.N, (dats V 0 c).arrAt_in 1 rfl cfg0.N, A_eq, A_eq]
    iintro ⟨Hl, Hr, H18⟩
    isplitl [Hl Hr]
    · iapply (pointsTo_share (PosShare.mem_left_op_right fullShare)).2
      isplitl [Hl]; · iexact Hl
      iexact Hr
    iexact H18
  · unfold Pipeline.unscopedRest
    exact bigSep_congr fun b hb => by rw [hrest b (Finset.mem_sdiff.mp hb).2]

end Entry

variable (m : (ℓ : Loc nD τ sig) → Buf (Elt F) ℓ) (ρ : Dev nD → PrngReg)

/-! ## The buffers at each boundary -/

/-- At launch. -/
abbrev W0 : Dev nD → Valuation τ sig (Elt F) := fun c b => (s₀ m ρ).mem ((c : Dev nD), b)
/-- After the first stretch of host operations (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the denominators' array at what the pipeline leaves, every other buffer as entered. -/
def W2 (c : Dev nD) : Valuation τ sig (Elt F) :=
  Function.update (W1 m ρ c) (Proc.devRef .tc main_v18) ((dats (V1 m ρ) 0 c).arrAt 2 cfg0.N)
abbrev V2 : (c : Dev nD) → (b : Ref sig .tc) → Buf (Elt F) ((c : Thread nD τ).loc b) := fun c b => W2 m ρ c b
/-- After the last stretch of host operations. -/
abbrev W3 : Dev nD → Valuation τ sig (Elt F) := fun c => StableHlo.after hostOps1 (W2 m ρ c)

theorem W2_v18 (c : Dev nD) : W2 m ρ c (Proc.devRef .tc main_v18) = (dats (V1 m ρ) 0 c).arrAt 2 cfg0.N := by
  unfold W2; exact Function.update_self _ _ _
theorem W2_of_ne (c : Dev nD) (b : Ref sig .tc) (hb : b ≠ main_v18) :
    W2 m ρ c (Proc.devRef .tc b) = W1 m ρ c (Proc.devRef .tc b) := by
  unfold W2; exact Function.update_of_ne (fun e => hb (Proc.devRef_injective _ e)) _ _

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats (V1 m ρ) 0 c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE REGION as a segment: entered from every buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin (V1 m ρ) c)
    unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin := exit_join (V1 m ρ) c (V2 m ρ c) (W2_of_ne m ρ c main_v17 (by decide)) (W2_v18 m ρ c)
      (fun b hb => W2_of_ne m ρ c b fun e => hb (by rw [image_arr, e]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's three segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    buffer of the device ends at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ (∃ r, prngReg c r) ∗ ∃ W, owes (c : Thread nD τ) (0 : CellTallies nD τ sig Unit) W)
        ⊢ iprop((StableHlo.held (c : Thread nD τ) (Pipeline.ucRefs τ sig) (W3 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the program runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_main m ρ)

end Cert.Kernel.Hand

end
-- ==== Proof.KI.Runs.lean ====
/-
  The kernel's body, point by point: what its four conditionals test, at which grid points each holds, and where the
  output window is idle. The grid is 16 row tiles by 4 column tiles, the column tile moving fastest: point t is row tile
  t / 4 and column tile t % 4. The accumulator is reset at column tile 0, added to at every column tile (through a mask
  where the tile meets the diagonal, that is where row tile / 4 = column tile), and copied out at column tile 3.
-/
import proofs.«154140_j43344809951557_2_alg».proof.Proof.Gen.KernelIdeal.Launch
import proofs.«154140_j43344809951557_2_alg».proof.Proof.Gen.KernelIdeal.Skeleton
import proofs.«154140_j43344809951557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Entry

/-! ## The four conditions, as the body computes them from the grid coordinates -/

/-- "column tile = 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "the tile's row range and column range overlap": the tile meets the diagonal. -/
abbrev cond0_1 (i : grid0.Coords) : Prop := (Scalar.cmpi .ne (Scalar.extui (Scalar.andi (Scalar.cmpi .slt (Scalar.muli (BitVec.ofNat 32 (i 0).val) 512#32) (Scalar.addi (Scalar.muli (BitVec.ofNat 32 (i 1).val) 2048#32) 2048#32)) (Scalar.cmpi .slt (Scalar.muli (BitVec.ofNat 32 (i 1).val) 2048#32) (Scalar.addi (Scalar.muli (BitVec.ofNat 32 (i 0).val) 512#32) 512#32)))) 0#32) = 1#1
theorem hcond0_1 : ∀ t : Fin cfg0.N, cond0_1 (grid0.coords t) ↔ t.val / 16 = t.val % 4 :=
  (by decide +kernel : ∀ t : Fin grid0.N, cond0_1 (grid0.coords t) ↔ t.val / 16 = t.val % 4)

/-- Its negation, as the body computes it (exclusive-or with true). -/
abbrev cond0_2 (i : grid0.Coords) : Prop := (Scalar.cmpi .ne (Scalar.extui (Scalar.xori (Scalar.andi (Scalar.cmpi .slt (Scalar.muli (BitVec.ofNat 32 (i 0).val) 512#32) (Scalar.addi (Scalar.muli (BitVec.ofNat 32 (i 1).val) 2048#32) 2048#32)) (Scalar.cmpi .slt (Scalar.muli (BitVec.ofNat 32 (i 1).val) 2048#32) (Scalar.addi (Scalar.muli (BitVec.ofNat 32 (i 0).val) 512#32) 512#32))) 1#1)) 0#32) = 1#1
theorem hcond0_2 : ∀ t : Fin cfg0.N, cond0_2 (grid0.coords t) ↔ ¬ (t.val / 16 = t.val % 4) :=
  (by decide +kernel : ∀ t : Fin grid0.N, cond0_2 (grid0.coords t) ↔ ¬ (t.val / 16 = t.val % 4))

/-- "column tile = 3": the accumulator is copied to the output block. -/
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from column tile 3 the output window is idle and is not written back. -/
theorem idleAt0_2 : ∀ t : Fin cfg0.N, ¬cond0_3 (grid0.coords t) → cfg0.idle 2 (grid0.coords t) = true := by decide +kernel
theorem noFlush0_2 : ∀ t : Fin cfg0.N, ¬cond0_3 (grid0.coords t) → (cfg0.win 2).flush t = false := by decide +kernel
theorem liveAt0_2 : ∀ t : Fin cfg0.N, cond0_3 (grid0.coords t) → cfg0.idle 2 (grid0.coords t) = false := by decide +kernel

/-! ## The memrefs the body is called with -/

abbrev VO0_2 : View sig .tc .vmem S512 .f32 := (Memref.whole cc0_stg2_0 : Memref sig .tc .vmem S512 .f32).view
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
/-- The accumulator: a scratch buffer of the kernel's own, carried from point to point. -/
abbrev scM0_0 : Memref sig .tc .vmem S512 .f32 := Memref.whole cc0_scratch0
abbrev VS0_0 : View sig .tc .vmem S512 .f32 := scM0_0.view

/-- What the region's invariant holds between points when nothing is said of the accumulator: the accumulator whole
    at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.Run.lean ====
/-
  The kernel body run symbolically, one control case at a time: which of its conditionals fire is fixed by the case, the
  loads return what the buffers hold, and each store is recorded as a piece written over the buffer it targets.
-/
import proofs.«154140_j43344809951557_2_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body's run in case A (accumulator reset; masked row sums; output untouched): from the two input
    blocks, the output buffer and the accumulator, to the same with the accumulator overwritten by the pieces the
    run finds. -/
noncomputable def kernelRun0_A (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case B (accumulator carried; plain row sums; output untouched): from the two input
    blocks, the output buffer and the accumulator, to the same with the accumulator overwritten by the pieces the
    run finds. -/
noncomputable def kernelRun0_B (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case C (accumulator carried; plain row sums; accumulator copied out): from the two input
    blocks, the output buffer and the accumulator, to the same with the accumulator and the output buffer overwritten by the pieces the
    run finds. -/
noncomputable def kernelRun0_C (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body's run in case D (accumulator carried; masked row sums; output untouched): from the two input
    blocks, the output buffer and the accumulator, to the same with the accumulator overwritten by the pieces the
    run finds. -/
noncomputable def kernelRun0_D (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case E (accumulator reset; plain row sums; output untouched): from the two input
    blocks, the output buffer and the accumulator, to the same with the accumulator overwritten by the pieces the
    run finds. -/
noncomputable def kernelRun0_E (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) :
    Σ' (L2 : List (View.Piece (Elt F) S512 .f32)), { LS0 : List (View.Piece (Elt F) S512 .f32) //
      ∀ (xi2 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- The body's run in case F (accumulator carried; masked row sums; accumulator copied out): from the two input
    blocks, the output buffer and the accumulator, to the same with the accumulator and the output buffer overwritten by the pieces the
    run finds. -/
noncomputable def kernelRun0_F (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) :
    Σ' (L2 : List (View.Piece (Elt F) S512 .f32)), { LS0 : List (View.Piece (Elt F) S512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Data.lean ====
/-
  What the output buffer and the accumulator hold after each grid point, by recursion on the point: at column tile 0 the
  accumulator restarts from zero, at the other column tiles it continues from what the point before left, and at column
  tile 3 the output buffer receives it. The proof data of the pipeline (the two input windows read one array, each
  through half of the full share), the region's invariant (the accumulator at the contents just described), and the body
  obligation at every point.
-/
import proofs.«154140_j43344809951557_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output buffer (nothing is stored: a placeholder nothing consults). -/
def out0_A_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) : Vec F S512 .f32 :=
  VO0_2.read (Elt F) (VO0_2.writes (Elt F) VO0_2.junk (kernelRun0_A (F := F) c i arg2 harg2 arg3 harg3 arg4 harg4 arg5 harg5 hc0 hc1 hc2 hc3 x0 x1).1)

/-- In case A the stores into the accumulator cover it. -/
theorem scover0_A_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) (y : S512.Idx) :
    ∃ pc ∈ (kernelRun0_A (F := F) c i arg2 harg2 arg3 harg3 arg4 harg4 arg5 harg5 hc0 hc1 hc2 hc3 x0 x1).2.1, y ∈ pc.1.set :=
  View.cover_of_tiledL (kernelRun0_A (F := F) c i arg2 harg2 arg3 harg3 arg4 harg4 arg5 harg5 hc0 hc1 hc2 hc3 x0 x1).2.1 S512.size (by sl_kernel_rfl) y

/-- What case A leaves in the accumulator. -/
def sout0_A_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) : Vec F S512 .f32 :=
  VS0_0.read (Elt F) (VS0_0.writes (Elt F) VS0_0.junk (kernelRun0_A (F := F) c i arg2 harg2 arg3 harg3 arg4 harg4 arg5 harg5 hc0 hc1 hc2 hc3 x0 x1).2.1)

/-- What case B leaves in the output buffer (nothing is stored: a placeholder nothing consults). -/
def out0_B_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_B (F := F) c i arg2 harg2 arg3 harg3 arg4 harg4 arg5 harg5 hc0 hc1 hc2 hc3 x0 x1 xs0).1)

/-- In case B the stores into the accumulator cover it. -/
theorem scover0_B_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) (y : S512.Idx) :
    ∃ pc ∈ (kernelRun0_B (F := F) c i arg2 harg2 arg3 harg3 arg4 harg4 arg5 harg5 hc0 hc1 hc2 hc3 x0 x1 xs0).2.1, y ∈ pc.1.set :=
  View.cover_of_tiledL (kernelRun0_B (F := F) c i arg2 harg2 arg3 harg3 arg4 harg4 arg5 harg5 hc0 hc1 hc2 hc3 x0 x1 xs0).2.1 S512.size (by sl_kernel_rfl) y

/-- What case B leaves in the accumulator. -/
def sout0_B_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_B (F := F) c i arg2 harg2 arg3 harg3 arg4 harg4 arg5 harg5 hc0 hc1 hc2 hc3 x0 x1 xs0).2.1)

/-- In case C the one store into the output buffer covers it. -/
theorem cover0_C_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) (y : S512.Idx) :
    ∃ pc ∈ (kernelRun0_C (F := F) c i arg2 harg2 arg3 harg3 arg4 harg4 arg5 harg5 hc0 hc1 hc2 hc3 x0 x1 xs0).1, y ∈ pc.1.set :=
  View.cover_of_tiledL (kernelRun0_C (F := F) c i arg2 harg2 arg3 harg3 arg4 harg4 arg5 harg5 hc0 hc1 hc2 hc3 x0 x1 xs0).1 S512.size (by sl_kernel_rfl) y

/-- What case C leaves in the output buffer. -/
def out0_C_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_C (F := F) c i arg2 harg2 arg3 harg3 arg4 harg4 arg5 harg5 hc0 hc1 hc2 hc3 x0 x1 xs0).1)

/-- In case C the stores into the accumulator cover it. -/
theorem scover0_C_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) (y : S512.Idx) :
    ∃ pc ∈ (kernelRun0_C (F := F) c i arg2 harg2 arg3 harg3 arg4 harg4 arg5 harg5 hc0 hc1 hc2 hc3 x0 x1 xs0).2.1, y ∈ pc.1.set :=
  View.cover_of_tiledL (kernelRun0_C (F := F) c i arg2 harg2 arg3 harg3 arg4 harg4 arg5 harg5 hc0 hc1 hc2 hc3 x0 x1 xs0).2.1 S512.size (by sl_kernel_rfl) y

/-- What case C leaves in the accumulator. -/
def sout0_C_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_C (F := F) c i arg2 harg2 arg3 harg3 arg4 harg4 arg5 harg5 hc0 hc1 hc2 hc3 x0 x1 xs0).2.1)

/-- What case D leaves in the output buffer (nothing is stored: a placeholder nothing consults). -/
def out0_D_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_D (F := F) c i arg2 harg2 arg3 harg3 arg4 harg4 arg5 harg5 hc0 hc1 hc2 hc3 x0 x1 xs0).1)

/-- In case D the stores into the accumulator cover it. -/
theorem scover0_D_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) (y : S512.Idx) :
    ∃ pc ∈ (kernelRun0_D (F := F) c i arg2 harg2 arg3 harg3 arg4 harg4 arg5 harg5 hc0 hc1 hc2 hc3 x0 x1 xs0).2.1, y ∈ pc.1.set :=
  View.cover_of_tiledL (kernelRun0_D (F := F) c i arg2 harg2 arg3 harg3 arg4 harg4 arg5 harg5 hc0 hc1 hc2 hc3 x0 x1 xs0).2.1 S512.size (by sl_kernel_rfl) y

/-- What case D leaves in the accumulator. -/
def sout0_D_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_D (F := F) c i arg2 harg2 arg3 harg3 arg4 harg4 arg5 harg5 hc0 hc1 hc2 hc3 x0 x1 xs0).2.1)

/-- What case E leaves in the output buffer (nothing is stored: a placeholder nothing consults). -/
def out0_E_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) : Vec F S512 .f32 :=
  VO0_2.read (Elt F) (VO0_2.writes (Elt F) VO0_2.junk (kernelRun0_E (F := F) c i arg2 harg2 arg3 harg3 arg4 harg4 arg5 harg5 hc0 hc1 hc2 hc3 x0 x1).1)

/-- In case E the stores into the accumulator cover it. -/
theorem scover0_E_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) (y : S512.Idx) :
    ∃ pc ∈ (kernelRun0_E (F := F) c i arg2 harg2 arg3 harg3 arg4 harg4 arg5 harg5 hc0 hc1 hc2 hc3 x0 x1).2.1, y ∈ pc.1.set :=
  View.cover_of_tiledL (kernelRun0_E (F := F) c i arg2 harg2 arg3 harg3 arg4 harg4 arg5 harg5 hc0 hc1 hc2 hc3 x0 x1).2.1 S512.size (by sl_kernel_rfl) y

/-- What case E leaves in the accumulator. -/
def sout0_E_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) : Vec F S512 .f32 :=
  VS0_0.read (Elt F) (VS0_0.writes (Elt F) VS0_0.junk (kernelRun0_E (F := F) c i arg2 harg2 arg3 harg3 arg4 harg4 arg5 harg5 hc0 hc1 hc2 hc3 x0 x1).2.1)

/-- In case F the one store into the output buffer covers it. -/
theorem cover0_F_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) (y : S512.Idx) :
    ∃ pc ∈ (kernelRun0_F (F := F) c i arg2 harg2 arg3 harg3 arg4 harg4 arg5 harg5 hc0 hc1 hc2 hc3 x0 x1 xs0).1, y ∈ pc.1.set :=
  View.cover_of_tiledL (kernelRun0_F (F := F) c i arg2 harg2 arg3 harg3 arg4 harg4 arg5 harg5 hc0 hc1 hc2 hc3 x0 x1 xs0).1 S512.size (by sl_kernel_rfl) y

/-- What case F leaves in the output buffer. -/
def out0_F_2 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) : Vec F S512 .f32 :=
  VO0_2.read (Elt F) (VO0_2.writes (Elt F) VO0_2.junk (kernelRun0_F (F := F) c i arg2 harg2 arg3 harg3 arg4 harg4 arg5 harg5 hc0 hc1 hc2 hc3 x0 x1 xs0).1)

/-- In case F the stores into the accumulator cover it. -/
theorem scover0_F_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) (y : S512.Idx) :
    ∃ pc ∈ (kernelRun0_F (F := F) c i arg2 harg2 arg3 harg3 arg4 harg4 arg5 harg5 hc0 hc1 hc2 hc3 x0 x1 xs0).2.1, y ∈ pc.1.set :=
  View.cover_of_tiledL (kernelRun0_F (F := F) c i arg2 harg2 arg3 harg3 arg4 harg4 arg5 harg5 hc0 hc1 hc2 hc3 x0 x1 xs0).2.1 S512.size (by sl_kernel_rfl) y

/-- What case F leaves in the accumulator. -/
def sout0_F_0 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) : Vec F S512 .f32 :=
  VS0_0.read (Elt F) (VS0_0.writes (Elt F) VS0_0.junk (kernelRun0_F (F := F) c i arg2 harg2 arg3 harg3 arg4 harg4 arg5 harg5 hc0 hc1 hc2 hc3 x0 x1 xs0).2.1)

section Entry
variable (V : (c : Dev nD) → (b : Ref sig .tc) → Buf (Elt F) ((c : Thread nD τ).loc b))

/-- Case A at point `t`: what it leaves in the output buffer and in the accumulator. -/
def at_A (c : Dev nD) (t : Fin cfg0.N) (h0 : t.val % 4 = 0) (h1 : t.val / 16 = t.val % 4) (h3 : ¬t.val % 4 = 3) : Vec F S512 .f32 × Vec F S512 .f32 :=
  (out0_A_2 c (grid0.coords t) (ms0_0 t) (hs0_0 t) (ms0_1 t) (hs0_1 t) (ms0_2 t) (hs0_2 t) scM0_0 (Memref.isWhole_whole _) ((hcond0_0 t).mpr h0) ((hcond0_1 t).mpr h1) (fun h => (hcond0_2 t).mp h h1) (fun h => h3 ((hcond0_3 t).mp h)) (iblk V c 0 t) (iblk V c 1 t), sout0_A_0 c (grid0.coords t) (ms0_0 t) (hs0_0 t) (ms0_1 t) (hs0_1 t) (ms0_2 t) (hs0_2 t) scM0_0 (Memref.isWhole_whole _) ((hcond0_0 t).mpr h0) ((hcond0_1 t).mpr h1) (fun h => (hcond0_2 t).mp h h1) (fun h => h3 ((hcond0_3 t).mp h)) (iblk V c 0 t) (iblk V c 1 t))

/-- Case B at point `t`: what it leaves in the output buffer and in the accumulator. -/
def at_B (c : Dev nD) (t : Fin cfg0.N) (h0 : ¬t.val % 4 = 0) (h1 : ¬t.val / 16 = t.val % 4) (h3 : ¬t.val % 4 = 3) (xs : Vec F S512 .f32) : Vec F S512 .f32 × Vec F S512 .f32 :=
  (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) (fun h => h3 ((hcond0_3 t).mp h)) (iblk V c 0 t) (iblk V c 1 t) xs, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) (fun h => h3 ((hcond0_3 t).mp h)) (iblk V c 0 t) (iblk V c 1 t) xs)

/-- Case C at point `t`: what it leaves in the output buffer and in the accumulator. -/
def at_C (c : Dev nD) (t : Fin cfg0.N) (h0 : ¬t.val % 4 = 0) (h1 : ¬t.val / 16 = t.val % 4) (h3 : t.val % 4 = 3) (xs : Vec F S512 .f32) : Vec F S512 .f32 × Vec F S512 .f32 :=
  (out0_C_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) ((hcond0_3 t).mpr h3) (iblk V c 0 t) (iblk V c 1 t) xs, sout0_C_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h1) ((hcond0_3 t).mpr h3) (iblk V c 0 t) (iblk V c 1 t) xs)

/-- Case D at point `t`: what it leaves in the output buffer and in the accumulator. -/
def at_D (c : Dev nD) (t : Fin cfg0.N) (h0 : ¬t.val % 4 = 0) (h1 : t.val / 16 = t.val % 4) (h3 : ¬t.val % 4 = 3) (xs : Vec F S512 .f32) : Vec F S512 .f32 × Vec F S512 .f32 :=
  (out0_D_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) (fun h => h3 ((hcond0_3 t).mp h)) (iblk V c 0 t) (iblk V c 1 t) xs, sout0_D_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) (fun h => h3 ((hcond0_3 t).mp h)) (iblk V c 0 t) (iblk V c 1 t) xs)

/-- Case E at point `t`: what it leaves in the output buffer and in the accumulator. -/
def at_E (c : Dev nD) (t : Fin cfg0.N) (h0 : t.val % 4 = 0) (h1 : ¬t.val / 16 = t.val % 4) (h3 : ¬t.val % 4 = 3) : Vec F S512 .f32 × Vec F S512 .f32 :=
  (out0_E_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) ((hcond0_2 t).mpr h1) (fun h => h3 ((hcond0_3 t).mp h)) (iblk V c 0 t) (iblk V c 1 t), sout0_E_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) ((hcond0_2 t).mpr h1) (fun h => h3 ((hcond0_3 t).mp h)) (iblk V c 0 t) (iblk V c 1 t))

/-- Case F at point `t`: what it leaves in the output buffer and in the accumulator. -/
def at_F (c : Dev nD) (t : Fin cfg0.N) (h0 : ¬t.val % 4 = 0) (h1 : t.val / 16 = t.val % 4) (h3 : t.val % 4 = 3) (xs : Vec F S512 .f32) : Vec F S512 .f32 × Vec F S512 .f32 :=
  (out0_F_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) ((hcond0_3 t).mpr h3) (iblk V c 0 t) (iblk V c 1 t) xs, sout0_F_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => (hcond0_2 t).mp h h1) ((hcond0_3 t).mpr h3) (iblk V c 0 t) (iblk V c 1 t) xs)

/-- THE ACCUMULATION: the output buffer's and the accumulator's contents after the body at position `n`. -/
def outsAt0 (c : Dev nD) : (n : ℕ) → n < cfg0.N → Vec F S512 .f32 × Vec F S512 .f32
  | 0, hn => at_A V c ⟨0, hn⟩ (Nat.zero_mod _) (by decide : (0 / 16 : ℕ) = 0 % 4) (by decide : ¬ (0 % 4 : ℕ) = 3)
  | n + 1, hn =>
    if h0 : (n + 1) % 4 = 0 then
      if h1 : (n + 1) / 16 = (n + 1) % 4 then at_A V c ⟨n + 1, hn⟩ h0 h1 (show ¬ (n + 1) % 4 = 3 by omega)
      else at_E V c ⟨n + 1, hn⟩ h0 h1 (show ¬ (n + 1) % 4 = 3 by omega)
    else if h3 : (n + 1) % 4 = 3 then
      if h1 : (n + 1) / 16 = (n + 1) % 4 then at_F V c ⟨n + 1, hn⟩ h0 h1 h3 (outsAt0 c n (Nat.lt_of_succ_lt hn)).2
      else at_C V c ⟨n + 1, hn⟩ h0 h1 h3 (outsAt0 c n (Nat.lt_of_succ_lt hn)).2
    else
      if h1 : (n + 1) / 16 = (n + 1) % 4 then at_D V c ⟨n + 1, hn⟩ h0 h1 h3 (outsAt0 c n (Nat.lt_of_succ_lt hn)).2
      else at_B V c ⟨n + 1, hn⟩ h0 h1 h3 (outsAt0 c n (Nat.lt_of_succ_lt hn)).2

theorem outsAt0_A (c : Dev nD) (t : Fin cfg0.N) (h0 : t.val % 4 = 0) (h1 : t.val / 16 = t.val % 4) (h3 : ¬t.val % 4 = 3) :
    outsAt0 V c t.val t.isLt = at_A V c t h0 h1 h3 := by
  obtain ⟨n, hn⟩ := t
  cases n with
  | zero => exact rfl
  | succ n => exact (dif_pos h0).trans ((dif_pos h1).trans rfl)

theorem outsAt0_B (c : Dev nD) (t : Fin cfg0.N) (h0 : ¬t.val % 4 = 0) (h1 : ¬t.val / 16 = t.val % 4) (h3 : ¬t.val % 4 = 3) :
    outsAt0 V c t.val t.isLt = at_B V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans ((dif_neg h1).trans rfl))

theorem outsAt0_C (c : Dev nD) (t : Fin cfg0.N) (h0 : ¬t.val % 4 = 0) (h1 : ¬t.val / 16 = t.val % 4) (h3 : t.val % 4 = 3) :
    outsAt0 V c t.val t.isLt = at_C V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans ((dif_neg h1).trans rfl))

theorem outsAt0_D (c : Dev nD) (t : Fin cfg0.N) (h0 : ¬t.val % 4 = 0) (h1 : t.val / 16 = t.val % 4) (h3 : ¬t.val % 4 = 3) :
    outsAt0 V c t.val t.isLt = at_D V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans ((dif_pos h1).trans rfl))

theorem outsAt0_E (c : Dev nD) (t : Fin cfg0.N) (h0 : t.val % 4 = 0) (h1 : ¬t.val / 16 = t.val % 4) (h3 : ¬t.val % 4 = 3) :
    outsAt0 V c t.val t.isLt = at_E V c t h0 h1 h3 := by
  obtain ⟨n, hn⟩ := t
  cases n with
  | zero => exact absurd (by decide : (0 / 16 : ℕ) = 0 % 4) h1
  | succ n => exact (dif_pos h0).trans ((dif_neg h1).trans rfl)

theorem outsAt0_F (c : Dev nD) (t : Fin cfg0.N) (h0 : ¬t.val % 4 = 0) (h1 : t.val / 16 = t.val % 4) (h3 : t.val % 4 = 3) :
    outsAt0 V c t.val t.isLt = at_F V c t h0 h1 h3 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans ((dif_pos h1).trans rfl))

/-- The region's invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ (∃ r, prngReg c r)) := by
  cases n with
  | zero => exact absurd rfl hz
  | succ n => rfl

/-- The proof data: the arrays as the region finds them; after the body each input's buffer at its block and the
    output's at `outsAt0`; the two windows onto the one input array each hold half of it; nothing owed. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats V 0 c).A w = V c (Pipeline.arrRef spec0 w) := by
  dsimp only [dats]

theorem PhiS_castSucc (c : Dev nD) (t : Fin cfg0.N) :
    (dats V 0 c).Φ t.castSucc = PhiS V c t.val (Nat.le_of_lt t.isLt) := by
  dsimp only [dats]; simp only [Fin.coe_castSucc]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = (outsAt0 V c t.val t.isLt).1 := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d

/-- What the body is called with at point `t`, -/
def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t)

set_option maxHeartbeats 8000000 in
/-- The body at any point: the closed forms of the conditions say which case the point is in, and that case's run
    applies; the invariant hands the body the accumulator and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dats V 0 c).owesAt () t.succ = (dats V 0 c).owesAt () t.castSucc from rfl]
  rw [show (dats V 0 c).Φ t.succ = PhiS V c (t.val + 1) t.isLt from rfl, PhiS_succ]
  have hN : t.val < 64 := lt_of_lt_of_eq t.isLt (show cfg0.N = 64 from N_0)
  by_cases h0 : t.val % 4 = 0
  · have h3 : ¬ t.val % 4 = 3 := by omega
    by_cases h1 : t.val / 16 = t.val % 4
    · rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [Dat.leavesExact_idle (dats V 0 c) 2 t (idleAt0_2 t (fun h => h3 ((hcond0_3 t).mp h))) (noFlush0_2 t (fun h => h3 ((hcond0_3 t).mp h)))]
      rw [outsAt0_A V c t h0 h1 h3]
      unfold at_A sout0_A_0; (try dsimp only)
      by_cases hz : t.val = 0
      · rw [PhiS_castSucc V c t, PhiS_zero V c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) ((hcond0_1 t).mpr h1) (fun h => (hcond0_2 t).mp h h1) (fun h => h3 ((hcond0_3 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) ((hcond0_1 t).mpr h1) (fun h => (hcond0_2 t).mp h h1) (fun h => h3 ((hcond0_3 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        iexists _; iexact H2
    · rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [Dat.leavesExact_idle (dats V 0 c) 2 t (idleAt0_2 t (fun h => h3 ((hcond0_3 t).mp h))) (noFlush0_2 t (fun h => h3 ((hcond0_3 t).mp h)))]
      rw [outsAt0_E V c t h0 h1 h3]
      unfold at_E sout0_E_0; (try dsimp only)
      have hz : t.val ≠ 0 := by omega
      rw [PhiS_castSucc V c t, PhiS_pos V c _ _ hz]
      iintro ⟨⟨HS0, Hg⟩, Ho, ⟨%d0, H0⟩, ⟨%d1, H1⟩, ⟨%d2, H2⟩⟩
      iapply ((kernelRun0_E c (grid0.coords t) _ _ _ _ _ _ _ _ ((hcond0_0 t).mpr h0) (fun h => h1 ((hcond0_1 t).mp h)) ((hcond0_2 t).mpr h1) (fun h => h3 ((hcond0_3 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_E_0 c _ _ _ _ _ _ _ _ _ _ _ _ _ _ _)
        iexact Hg
      isplitl [Ho]; · iexact Ho
      isplitl [H0]; · iexact H0
      isplitl [H1]; · iexact H1
      iexists _; iexact H2
  · by_cases h3 : t.val % 4 = 3
    · by_cases h1 : t.val / 16 = t.val % 4
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [show (dats V 0 c).leavesExact 2 t = owns (c : Thread nD τ) (ms0_2 t) fullShare ((dats V 0 c).after 2 t) from by
          unfold Dat.leavesExact; rw [liveAt0_2 t ((hcond0_3 t).mpr h3)], after0_2]
        rw [outsAt0_F V c t h0 h1 h3]
        unfold at_F out0_F_2 sout0_F_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_F c (grid0.coords t) _ _ _ _ _ _ _ _ (fun h => h0 ((hcond0_0 t).mp h)) ((hcond0_1 t).mpr h1) (fun h => (hcond0_2 t).mp h h1) ((hcond0_3 t).mpr h3) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_F_0 c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_F_2 c _ _ _ _ _ _ _ _ _ _ _ _ _ _ _ _)
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [show (dats V 0 c).leavesExact 2 t = owns (c : Thread nD τ) (ms0_2 t) fullShare ((dats V 0 c).after 2 t) from by
          unfold Dat.leavesExact; rw [liveAt0_2 t ((hcond0_3 t).mpr h3)], after0_2]
        rw [outsAt0_C V c t h0 h1 h3]
        unfold at_C out0_C_2 sout0_C_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) (fun h => h1 ((hcond0_1 t).mp h)) ((hcond0_2 t).mpr h1) ((hcond0_3 t).mpr h3) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _)
    · by_cases h1 : t.val / 16 = t.val % 4
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [Dat.leavesExact_idle (dats V 0 c) 2 t (idleAt0_2 t (fun h => h3 ((hcond0_3 t).mp h))) (noFlush0_2 t (fun h => h3 ((hcond0_3 t).mp h)))]
        rw [outsAt0_D V c t h0 h1 h3]
        unfold at_D sout0_D_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_D c (grid0.coords t) _ _ _ _ _ _ _ _ (fun h => h0 ((hcond0_0 t).mp h)) ((hcond0_1 t).mpr h1) (fun h => (hcond0_2 t).mp h h1) (fun h => h3 ((hcond0_3 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_D_0 c _ _ _ _ _ _ _ _ _ _ _ _ _ _ _ _)
          iexact Hg
        isplitl [Ho]; · iexact Ho
        isplitl [H0]; · iexact H0
        isplitl [H1]; · iexact H1
        iexists _; iexact H2
      · rw [show (dats V 0 c).leavesExact 0 t = owns (c : Thread nD τ) (ms0_0 t) fullShare ((dats V 0 c).after 0 t) from by
          unfold Dat.leavesExact; rw [liveAt0_0 t], after0_0]
        rw [show (dats V 0 c).leavesExact 1 t = owns (c : Thread nD τ) (ms0_1 t) fullShare ((dats V 0 c).after 1 t) from by
          unfold Dat.leavesExact; rw [liveAt0_1 t], after0_1]
        rw [Dat.leavesExact_idle (dats V 0 c) 2 t (idleAt0_2 t (fun h => h3 ((hcond0_3 t).mp h))) (noFlush0_2 t (fun h => h3 ((hcond0_3 t).mp h)))]
        rw [outsAt0_B V c t h0 h1 h3]
        unfold at_B sout0_B_0; (try dsimp only)
        have hz : t.val ≠ 0 := by omega
        rw [PhiS_castSucc V c t, PhiS_pos V c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) ((hcond0_2 t).mpr h1) (fun h => h3 ((hcond0_3 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation (c : Dev nD) : BodyObligation (dats (F := F) V 0 c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After the last point the invariant gives the same back: the accumulator's contents are forgotten. -/
theorem hout (c : Dev nD) : (dats V 0 c).Φ (Fin.last cfg0.N) ⊢ Pipeline.ΦA spec0 c := by
  have ht : (Fin.last cfg0.N).val ≠ 0 := by rw [Fin.val_last]; have : cfg0.N = 64 := N_0; omega
  rw [show (dats V 0 c).Φ (Fin.last cfg0.N) = PhiS V c (Fin.last cfg0.N).val (Nat.le_of_lt_succ (Fin.last cfg0.N).isLt) from rfl, PhiS_pos V c _ _ ht, PhiA0_eq]
  iintro ⟨HS0, Hg⟩
  isplitl [HS0]
  · iexists _; iexact HS0
  iexact Hg

end Entry

end Cert.KernelIdeal.Hand

end
-- ==== Proof.KI.Main.lean ====
/-
  The whole program as three stretches: the host operations that normalise the rows and stack them, the kernel region,
  and the host operations that turn the denominators into the mean loss. The two input windows of the region read ONE
  array (the stacked rows), so at the region's entry that array's ownership is split in two halves, one per window, and
  joined again at the exit; the output window owns the denominators' array outright. The run ends with every buffer at a
  named valuation: the launch memory pushed through the first stretch, the denominators' array replaced by what the
  pipeline leaves, and the result pushed through the last stretch.
-/
import proofs.«154140_j43344809951557_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The windows stand on two arrays: the stacked rows (twice) and the denominators. -/
theorem image_arr : Finset.univ.image (Pipeline.arrRef spec0) = {main_v17, main_v18} := by decide

theorem share_0 (c : Dev nD) : (dats V 0 c).share 0 = fullShare.left := rfl
theorem share_1 (c : Dev nD) : (dats V 0 c).share 1 = fullShare.right := rfl
theorem share_2 (c : Dev nD) : (dats V 0 c).share 2 = fullShare := rfl

/-- The two arrays behind the windows, each whole. -/
theorem arrBufs_eq (c : Dev nD) (V' : (b : Ref sig .tc) → Buf (Elt F) ((c : Thread nD τ).loc b)) :
    (Pipeline.arrBufs spec0 c V' : sProp 𝕄)
      = iprop((((c : Thread nD τ).loc main_v17) ↦{fullShare} V' main_v17) ∗ (((c : Thread nD τ).loc main_v18) ↦{fullShare} V' main_v18)) := by
  unfold Pipeline.arrBufs
  rw [image_arr, BI.bigSep_insert (by decide), BI.bigSep_singleton]
  try rfl

/-- The three windows' arrays: the stacked rows held in two halves, the denominators whole. -/
theorem arrays_eq3 (c : Dev nD) (Fn : (w : Fin cfg0.W) → Buf (Elt F) ((cfg0.win w).arr.view.loc (c : Thread nD τ))) :
    ((dats V 0 c).arrays Fn : sProp 𝕄)
      = iprop((((c : Thread nD τ).loc main_v17) ↦{fullShare.left} Fn 0) ∗ (((c : Thread nD τ).loc main_v17) ↦{fullShare.right} Fn 1)
          ∗ (((c : Thread nD τ).loc main_v18) ↦{fullShare} Fn 2)) := by
  unfold Dat.arrays
  rw [bigSep_W0, (arr_whole0 0).set_eq_univ, (arr_whole0 2).set_eq_univ, share_0, share_1, share_2]
  try rfl

/-- ENTRY: the two arrays, each whole, are the three windows' arrays: the stacked rows' ownership halved. -/
theorem arrays_of_arrBufs (c : Dev nD) :
    (Pipeline.arrBufs spec0 c (V c) : sProp 𝕄) ⊢ (dats V 0 c).arrays ((dats V 0 c).arrAt · 0) := by
  rw [arrBufs_eq, arrays_eq3]
  iintro ⟨H17, H18⟩
  ihave H := (pointsTo_share (PosShare.mem_left_op_right fullShare)).1 $$ H17
  icases H with ⟨Hl, Hr⟩
  isplitl [Hl]; · iexact Hl
  isplitl [Hr]; · iexact Hr
  iexact H18

theorem entry_split (c : Dev nD) :
    (unscopedBufs c (V c) : sProp 𝕄) ⊢ iprop((dats V 0 c).arrays ((dats V 0 c).arrAt · 0) ∗ Pipeline.unscopedRest spec0 c (V c)) := by
  rw [Pipeline.unscopedBufs_split₀ cfgs 0 winFacts₀0.arr_unscoped c (V c)]
  exact sep_mono (arrays_of_arrBufs V c) .rfl

/-- EXIT: the halves joined; the stacked rows as they were, the denominators at what the pipeline leaves. -/
theorem exit_join (c : Dev nD) (V' : (b : Ref sig .tc) → Buf (Elt F) ((c : Thread nD τ).loc b))
    (h17 : V' main_v17 = V c main_v17) (h18 : V' main_v18 = (dats V 0 c).arrAt 2 cfg0.N)
    (hrest : ∀ b, b ∉ Finset.univ.image (Pipeline.arrRef spec0) → V' b = V c b) :
    iprop((dats V 0 c).arrays ((dats V 0 c).arrAt · cfg0.N) ∗ Pipeline.unscopedRest spec0 c (V c)) ⊢ (unscopedBufs c V' : sProp 𝕄) := by
  rw [Pipeline.unscopedBufs_split₀ cfgs 0 winFacts₀0.arr_unscoped c V']
  refine sep_mono ?_ (Entails.of_eq ?_)
  · rw [arrBufs_eq, arrays_eq3, h17, h18]
    beta_reduce
    rw [(dats V 0 c).arrAt_in 0 rfl cfg0.N, (dats V 0 c).arrAt_in 1 rfl cfg0.N, A_eq, A_eq]
    iintro ⟨Hl, Hr, H18⟩
    isplitl [Hl Hr]
    · iapply (pointsTo_share (PosShare.mem_left_op_right fullShare)).2
      isplitl [Hl]; · iexact Hl
      iexact Hr
    iexact H18
  · unfold Pipeline.unscopedRest
    exact bigSep_congr fun b hb => by rw [hrest b (Finset.mem_sdiff.mp hb).2]

end Entry

variable (m : (ℓ : Loc nD τ sig) → Buf (Elt F) ℓ) (ρ : Dev nD → PrngReg)

/-! ## The buffers at each boundary -/

/-- At launch. -/
abbrev W0 : Dev nD → Valuation τ sig (Elt F) := fun c b => (s₀ m ρ).mem ((c : Dev nD), b)
/-- After the first stretch of host operations (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the denominators' array at what the pipeline leaves, every other buffer as entered. -/
def W2 (c : Dev nD) : Valuation τ sig (Elt F) :=
  Function.update (W1 m ρ c) (Proc.devRef .tc main_v18) ((dats (V1 m ρ) 0 c).arrAt 2 cfg0.N)
abbrev V2 : (c : Dev nD) → (b : Ref sig .tc) → Buf (Elt F) ((c : Thread nD τ).loc b) := fun c b => W2 m ρ c b
/-- After the last stretch of host operations. -/
abbrev W3 : Dev nD → Valuation τ sig (Elt F) := fun c => StableHlo.after hostOps1 (W2 m ρ c)

theorem W2_v18 (c : Dev nD) : W2 m ρ c (Proc.devRef .tc main_v18) = (dats (V1 m ρ) 0 c).arrAt 2 cfg0.N := by
  unfold W2; exact Function.update_self _ _ _
theorem W2_of_ne (c : Dev nD) (b : Ref sig .tc) (hb : b ≠ main_v18) :
    W2 m ρ c (Proc.devRef .tc b) = W1 m ρ c (Proc.devRef .tc b) := by
  unfold W2; exact Function.update_of_ne (fun e => hb (Proc.devRef_injective _ e)) _ _

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0]
          simp only [List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats (V1 m ρ) 0 c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE REGION as a segment: entered from every buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin (V1 m ρ) c)
    unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin := exit_join (V1 m ρ) c (V2 m ρ c) (W2_of_ne m ρ c main_v17 (by decide)) (W2_v18 m ρ c)
      (fun b hb => W2_of_ne m ρ c b fun e => hb (by rw [image_arr, e]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's three segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    buffer of the device ends at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ (∃ r, prngReg c r) ∗ ∃ W, owes (c : Thread nD τ) (0 : CellTallies nD τ sig Unit) W)
        ⊢ iprop((StableHlo.held (c : Thread nD τ) (Pipeline.ucRefs τ sig) (W3 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the program runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_main m ρ)

end Cert.KernelIdeal.Hand

end
-- ==== Proof.KI.Pieces.lean ====
/-
  Each case's found pieces read back as values: the accumulator ends at the skeleton's payload of the two input blocks
  and of what the accumulator held (the zero block where the case resets it); at column tile 3 the output buffer ends at
  the same.
-/
import proofs.«154140_j43344809951557_2_alg».proof.Proof.KI.Main
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → Nat) = fun _ => 0 := funext fun a => by fin_cases a; rfl
theorem hz2 : (![0, 0] : Fin 2 → Nat) = fun _ => 0 := funext fun a => by fin_cases a <;> rfl

/-- Case A leaves in the accumulator the zero block plus the tile's masked row sums. -/
theorem sout_A (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : cond0_1 i) (hc2 : ¬cond0_2 i) (hc3 : ¬cond0_3 i)
    (x0 : Vec F S512x256 .bf16) (x1 : Vec F S2048x256 .bf16) :
    sout0_A_0 (F := F) c i arg2 harg2 arg3 harg3 arg4 harg4 arg5 harg5 hc0 hc1 hc2 hc3 x0 x1 = k0_pay3 i x0 x1 (k0_pay1 (F := F)) := by
  unfold sout0_A_0
  rw [View.read_writes_eq_canon _ _ _ (scover0_A_0 c i arg2 harg2 arg3 harg3 arg4 harg4 arg5 harg5 hc0 hc1 hc2 hc3 x0 x1)]
  unfold kernelRun0_A
  dsimp only
  try sl_unfold_words
  first
    | rw [View.canon_cons_unit_zero (S := S512) hz1, View.readCov_unit_zero (S := S512) _ hz1]
    | rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]

/-- Case B leaves in the accumulator what it held plus the tile's row sums. -/
theorem sout_B (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : ¬cond0_3 i)
    (x0 : Vec F S512x256 .bf16) (x1 : Vec F S2048x256 .bf16) (xs0 : Vec F S512 .f32) :
    sout0_B_0 (F := F) c i arg2 harg2 arg3 harg3 arg4 harg4 arg5 harg5 hc0 hc1 hc2 hc3 x0 x1 xs0 = k0_pay4 x0 x1 xs0 := by
  unfold sout0_B_0
  rw [View.read_writes_eq_canon _ _ _ (scover0_B_0 c i arg2 harg2 arg3 harg3 arg4 harg4 arg5 harg5 hc0 hc1 hc2 hc3 x0 x1 xs0)]
  unfold kernelRun0_B
  dsimp only
  try sl_unfold_words
  first
    | rw [View.canon_cons_unit_zero (S := S512) hz1, View.readCov_unit_zero (S := S512) _ hz1]
    | rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]

/-- Case C leaves in the accumulator what it held plus the tile's row sums. -/
theorem sout_C (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) :
    sout0_C_0 (F := F) c i arg2 harg2 arg3 harg3 arg4 harg4 arg5 harg5 hc0 hc1 hc2 hc3 x0 x1 xs0 = k0_pay4 x0 x1 xs0 := by
  unfold sout0_C_0
  rw [View.read_writes_eq_canon _ _ _ (scover0_C_0 c i arg2 harg2 arg3 harg3 arg4 harg4 arg5 harg5 hc0 hc1 hc2 hc3 x0 x1 xs0)]
  unfold kernelRun0_C
  dsimp only
  try sl_unfold_words
  first
    | rw [View.canon_cons_unit_zero (S := S512) hz1, View.readCov_unit_zero (S := S512) _ hz1]
    | rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]

/-- Case C copies that into the output buffer. -/
theorem out_C (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : ¬cond0_1 i) (hc2 : cond0_2 i) (hc3 : cond0_3 i)
    (x0 : Vec F S512x256 .bf16) (x1 : Vec F S2048x256 .bf16) (xs0 : Vec F S512 .f32) :
    out0_C_2 (F := F) c i arg2 harg2 arg3 harg3 arg4 harg4 arg5 harg5 hc0 hc1 hc2 hc3 x0 x1 xs0 = k0_pay4 x0 x1 xs0 := by
  unfold out0_C_2
  rw [View.read_writes_eq_canon _ _ _ (cover0_C_2 c i arg2 harg2 arg3 harg3 arg4 harg4 arg5 harg5 hc0 hc1 hc2 hc3 x0 x1 xs0)]
  unfold kernelRun0_C
  dsimp only
  try sl_unfold_words
  rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]
  rw [View.readCov_unit_zero (S := S512) _ hz1]
  try simp only [View.readAt_eq_ld, harg2.read_unread, harg3.read_unread, harg4.read_unread, harg5.read_unread, View.ld_unit_zero (S := S512x256) hz2, View.ld_unit_zero (S := S2048x256) hz2, View.ld_unit_zero (S := S512) hz1]

/-- Case D leaves in the accumulator what it held plus the tile's masked row sums. -/
theorem sout_D (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : ¬cond0_3 i)
    (x0 : Vec F S512x256 .bf16) (x1 : Vec F S2048x256 .bf16) (xs0 : Vec F S512 .f32) :
    sout0_D_0 (F := F) c i arg2 harg2 arg3 harg3 arg4 harg4 arg5 harg5 hc0 hc1 hc2 hc3 x0 x1 xs0 = k0_pay3 i x0 x1 xs0 := by
  unfold sout0_D_0
  rw [View.read_writes_eq_canon _ _ _ (scover0_D_0 c i arg2 harg2 arg3 harg3 arg4 harg4 arg5 harg5 hc0 hc1 hc2 hc3 x0 x1 xs0)]
  unfold kernelRun0_D
  dsimp only
  try sl_unfold_words
  first
    | rw [View.canon_cons_unit_zero (S := S512) hz1, View.readCov_unit_zero (S := S512) _ hz1]
    | rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]

/-- Case E leaves in the accumulator the zero block plus the tile's row sums. -/
theorem sout_E (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : cond0_0 i) (hc1 : ¬cond0_1 i) (hc2 : cond0_2 i) (hc3 : ¬cond0_3 i)
    (x0 : Vec F S512x256 .bf16) (x1 : Vec F S2048x256 .bf16) :
    sout0_E_0 (F := F) c i arg2 harg2 arg3 harg3 arg4 harg4 arg5 harg5 hc0 hc1 hc2 hc3 x0 x1 = k0_pay4 x0 x1 (k0_pay1 (F := F)) := by
  unfold sout0_E_0
  rw [View.read_writes_eq_canon _ _ _ (scover0_E_0 c i arg2 harg2 arg3 harg3 arg4 harg4 arg5 harg5 hc0 hc1 hc2 hc3 x0 x1)]
  unfold kernelRun0_E
  dsimp only
  try sl_unfold_words
  first
    | rw [View.canon_cons_unit_zero (S := S512) hz1, View.readCov_unit_zero (S := S512) _ hz1]
    | rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]

/-- Case F leaves in the accumulator what it held plus the tile's masked row sums. -/
theorem sout_F (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) :
    sout0_F_0 (F := F) c i arg2 harg2 arg3 harg3 arg4 harg4 arg5 harg5 hc0 hc1 hc2 hc3 x0 x1 xs0 = k0_pay3 i x0 x1 xs0 := by
  unfold sout0_F_0
  rw [View.read_writes_eq_canon _ _ _ (scover0_F_0 c i arg2 harg2 arg3 harg3 arg4 harg4 arg5 harg5 hc0 hc1 hc2 hc3 x0 x1 xs0)]
  unfold kernelRun0_F
  dsimp only
  try sl_unfold_words
  first
    | rw [View.canon_cons_unit_zero (S := S512) hz1, View.readCov_unit_zero (S := S512) _ hz1]
    | rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]

/-- Case F copies that into the output buffer. -/
theorem out_F (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512 .f32) (harg4 : arg4.IsWhole) (arg5 : Memref sig .tc .vmem S512 .f32) (harg5 : arg5.IsWhole) (hc0 : ¬cond0_0 i) (hc1 : cond0_1 i) (hc2 : ¬cond0_2 i) (hc3 : cond0_3 i)
    (x0 : Vec F S512x256 .bf16) (x1 : Vec F S2048x256 .bf16) (xs0 : Vec F S512 .f32) :
    out0_F_2 (F := F) c i arg2 harg2 arg3 harg3 arg4 harg4 arg5 harg5 hc0 hc1 hc2 hc3 x0 x1 xs0 = k0_pay3 i x0 x1 xs0 := by
  unfold out0_F_2
  rw [View.read_writes_eq_canon _ _ _ (cover0_F_2 c i arg2 harg2 arg3 harg3 arg4 harg4 arg5 harg5 hc0 hc1 hc2 hc3 x0 x1 xs0)]
  unfold kernelRun0_F
  dsimp only
  try sl_unfold_words
  rw [View.canon_unit_zero hz1]
  simp only [View.readAt_eq_ld, harg2.read_unread, harg3.read_unread, harg4.read_unread, harg5.read_unread, View.ld_unit_zero (S := S512x256) hz2, View.ld_unit_zero (S := S2048x256) hz2, View.ld_unit_zero (S := S512) hz1]
  rw [View.readCov_unit_zero (S := S512) _ hz1]
  try simp only [View.readAt_eq_ld, harg2.read_unread, harg3.read_unread, harg4.read_unread, harg5.read_unread, View.ld_unit_zero (S := S512x256) hz2, View.ld_unit_zero (S := S2048x256) hz2, View.ld_unit_zero (S := S512) hz1]

end Cert.KernelIdeal.Hand

end
-- ==== Proof.KI.Chain.lean ====
/-
  The accumulator's contents after each grid point in closed form, by recursion on the point: at column tile 0 it
  restarts from the zero block, elsewhere it continues from the point before; the tile's row sums are added through the
  diagonal mask where row tile / 4 = column tile, plainly elsewhere. What the run found is this (by induction on the
  point), and at column tile 3 the output buffer holds it too.
-/
import proofs.«154140_j43344809951557_2_alg».proof.Proof.KI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The accumulator after point `n`. -/
def acc (c : Dev nD) : (n : ℕ) → n < cfg0.N → Vec F S512 .f32
  | 0, h => k0_pay3 (grid0.coords ⟨0, h⟩) (iblk V c 0 ⟨0, h⟩) (iblk V c 1 ⟨0, h⟩) (k0_pay1 (F := F))
  | n + 1, h =>
    if (n + 1) / 16 = (n + 1) % 4 then
      k0_pay3 (grid0.coords ⟨n + 1, h⟩) (iblk V c 0 ⟨n + 1, h⟩) (iblk V c 1 ⟨n + 1, h⟩)
        (if (n + 1) % 4 = 0 then (k0_pay1 (F := F)) else acc c n (Nat.lt_of_succ_lt h))
    else
      k0_pay4 (iblk V c 0 ⟨n + 1, h⟩) (iblk V c 1 ⟨n + 1, h⟩)
        (if (n + 1) % 4 = 0 then (k0_pay1 (F := F)) else acc c n (Nat.lt_of_succ_lt h))

/-- What the run leaves in the accumulator after point `n` is that. -/
theorem outsAt_snd (c : Dev nD) : ∀ (n : ℕ) (h : n < cfg0.N), (outsAt0 V c n h).2 = acc V c n h
  | 0, h => by
    have e := outsAt0_A V c ⟨0, h⟩ (Nat.zero_mod _) (by decide : (0 / 16 : ℕ) = 0 % 4) (by decide : ¬ (0 % 4 : ℕ) = 3)
    show (outsAt0 V c (⟨0, h⟩ : Fin cfg0.N).val (⟨0, h⟩ : Fin cfg0.N).isLt).2 = _
    rw [e]; unfold at_A acc; dsimp only; rw [sout_A]
  | n + 1, h => by
    have ih := outsAt_snd c n (Nat.lt_of_succ_lt h)
    unfold acc
    by_cases h0 : (n + 1) % 4 = 0
    · have h3 : ¬ (n + 1) % 4 = 3 := by omega
      by_cases h1 : (n + 1) / 16 = (n + 1) % 4
      · rw [if_pos h1, if_pos h0]
        have e := outsAt0_A V c ⟨n + 1, h⟩ h0 h1 h3
        show (outsAt0 V c (⟨n + 1, h⟩ : Fin cfg0.N).val (⟨n + 1, h⟩ : Fin cfg0.N).isLt).2 = _
        rw [e]; unfold at_A; dsimp only; rw [sout_A]
        try rfl
      · rw [if_neg h1, if_pos h0]
        have e := outsAt0_E V c ⟨n + 1, h⟩ h0 h1 h3
        show (outsAt0 V c (⟨n + 1, h⟩ : Fin cfg0.N).val (⟨n + 1, h⟩ : Fin cfg0.N).isLt).2 = _
        rw [e]; unfold at_E; dsimp only; rw [sout_E]
        try rfl
    · by_cases h3 : (n + 1) % 4 = 3
      · by_cases h1 : (n + 1) / 16 = (n + 1) % 4
        · rw [if_pos h1, if_neg h0, ← ih]
          have e := outsAt0_F V c ⟨n + 1, h⟩ h0 h1 h3
          show (outsAt0 V c (⟨n + 1, h⟩ : Fin cfg0.N).val (⟨n + 1, h⟩ : Fin cfg0.N).isLt).2 = _
          rw [e]; unfold at_F; dsimp only; rw [sout_F]
          try rfl
        · rw [if_neg h1, if_neg h0, ← ih]
          have e := outsAt0_C V c ⟨n + 1, h⟩ h0 h1 h3
          show (outsAt0 V c (⟨n + 1, h⟩ : Fin cfg0.N).val (⟨n + 1, h⟩ : Fin cfg0.N).isLt).2 = _
          rw [e]; unfold at_C; dsimp only; rw [sout_C]
          try rfl
      · by_cases h1 : (n + 1) / 16 = (n + 1) % 4
        · rw [if_pos h1, if_neg h0, ← ih]
          have e := outsAt0_D V c ⟨n + 1, h⟩ h0 h1 h3
          show (outsAt0 V c (⟨n + 1, h⟩ : Fin cfg0.N).val (⟨n + 1, h⟩ : Fin cfg0.N).isLt).2 = _
          rw [e]; unfold at_D; dsimp only; rw [sout_D]
          try rfl
        · rw [if_neg h1, if_neg h0, ← ih]
          have e := outsAt0_B V c ⟨n + 1, h⟩ h0 h1 h3
          show (outsAt0 V c (⟨n + 1, h⟩ : Fin cfg0.N).val (⟨n + 1, h⟩ : Fin cfg0.N).isLt).2 = _
          rw [e]; unfold at_B; dsimp only; rw [sout_B]
          try rfl

/-- At column tile 3 the output buffer is left holding the accumulator. -/
theorem outsAt_fst (c : Dev nD) (t : Fin cfg0.N) (h3 : t.val % 4 = 3) : (outsAt0 V c t.val t.isLt).1 = acc V c t.val t.isLt := by
  rw [← outsAt_snd]
  have h0 : ¬ t.val % 4 = 0 := by omega
  by_cases h1 : t.val / 16 = t.val % 4
  · rw [outsAt0_F V c t h0 h1 h3]; unfold at_F; dsimp only; rw [out_F, sout_F]
  · rw [outsAt0_C V c t h0 h1 h3]; unfold at_C; dsimp only; rw [out_C, sout_C]

end Entry

end Cert.KernelIdeal.Hand

end
-- ==== Proof.Spec.lean ====
/-
  The arithmetic both programs share, over the extended reals.

  * The float patterns the programs spell: 0, 1/2, 1, 2.
  * Scaling by 2 is dividing by 1/2, on every extended real.
  * The diagonal mask: multiplying by one minus the indicator of "row = column" keeps an entry off the diagonal and
    replaces it by zero on it (zero times anything is zero on the extended reals).
  * A sum over 8192 columns is the sum over four consecutive tiles of 2048 columns of the tiles' sums; and adding the
    tiles' sums one after the other, starting from zero, is the sum over the tiles. Only commutativity and associativity
    of addition are used, so nothing here needs the entries to be finite.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The pattern of `+0.0` denotes 0. -/
theorem ofBits_zero : Ideal.ofBits .f32 0x00000000#32 = 0 := by
  simp [Ideal.ofBits, Ideal.ieee]

/-- The pattern of `1.0` denotes 1. -/
theorem ofBits_one : Ideal.ofBits .f32 0x3F800000#32 = 1 := by
  simp [Ideal.ofBits, Ideal.ieee, -EReal.coe_mul]; norm_num

/-- The pattern of `2.0` denotes the real 2. -/
theorem ofBits_two : Ideal.ofBits .f32 0x40000000#32 = ((2 : ℝ) : EReal) := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- Multiplying by 2 is dividing by 1/2. -/
theorem scale_eq (s : EReal) :
    s * Ideal.ofBits .f32 0x40000000#32 = Ideal.div s (Ideal.ofBits .f32 0x3F000000#32) := by
  rw [ofBits_two, ofBits_half, Ideal.div_coe (by norm_num : (1 / 2 : ℝ) ≠ 0)]
  norm_num

/-- On the diagonal the reference's mask factor is `1 - 1`, and the product is zero. -/
theorem mask_diag (e : EReal) : (Ideal.ofBits .f32 0x3F800000#32 - (((1 : ℕ) : ℝ) : EReal)) * e = 0 := by
  rw [ofBits_one]
  have : (1 : EReal) - (((1 : ℕ) : ℝ) : EReal) = 0 := by
    rw [Nat.cast_one, EReal.coe_one]; exact sub_self_one
  rw [this, zero_mul]
where
  sub_self_one : (1 : EReal) - 1 = 0 := by
    rw [← EReal.coe_one, ← EReal.coe_sub, sub_self, EReal.coe_zero]

/-- Off the diagonal it is `1 - 0`, and the product is the entry. -/
theorem mask_off (e : EReal) : (Ideal.ofBits .f32 0x3F800000#32 - (((0 : ℕ) : ℝ) : EReal)) * e = e := by
  rw [ofBits_one, Nat.cast_zero, EReal.coe_zero, sub_zero, one_mul]

/-- A sum over 8192 indices is the sum over four consecutive blocks of 2048 of the block sums. -/
theorem sum_tiles {M : Type*} [AddCommMonoid M] (f : Fin 8192 → M) :
    ∑ k, f k = ∑ j : Fin 4, ∑ q : Fin 2048, f ⟨2048 * j.val + q.val, by have := j.isLt; have := q.isLt; omega⟩ := by
  have h := Fin.sum_univ_add (M := M) (a := 2048 + 2048 + 2048) (b := 2048) f
  have h2 := fun g : Fin (2048 + 2048 + 2048) → M => Fin.sum_univ_add (M := M) (a := 2048 + 2048) (b := 2048) g
  have h3 := fun g : Fin (2048 + 2048) → M => Fin.sum_univ_add (M := M) (a := 2048) (b := 2048) g
  rw [Fin.sum_univ_four]
  refine h.trans ?_
  rw [h2, h3]
  rfl

/-- Adding the terms of a sequence one after the other, starting from nothing, is the sum over an initial segment. -/
theorem range_succ_sum {M : Type*} [AddCommMonoid M] (T : ℕ → M) (n : ℕ) :
    ∑ j ∈ Finset.range (n + 1), T j = ∑ j ∈ Finset.range n, T j + T n := Finset.sum_range_succ T n

/-- The sum over the four tiles as a sum over an initial segment of the naturals. -/
theorem sum_fin4 {M : Type*} [AddCommMonoid M] (T : ℕ → M) : ∑ j : Fin 4, T j.val = ∑ j ∈ Finset.range 4, T j :=
  (Finset.sum_range T).symm

end Cert.Spec

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.KI.Tile.lean ====
/-
  One grid point's tile, read entry by entry at exact arithmetic. Row p of the row block at point t is row
  512·(t/4) + p of the stacked rows; row q of the column block is row 2048·(t%4) + q. The body's product entry (p, q) is
  the dot product of those two rows; it is doubled and exponentiated. The masked sum of a row replaces the entry by zero
  exactly where the global row index equals the global column index (the two 32-bit index vectors never wrap: every
  index is below 8192); where the tile misses the diagonal no entry is on it, so the plain sum is the masked one.
-/
import proofs.«154140_j43344809951557_2_alg».proof.Proof.KI.Chain
import proofs.«154140_j43344809951557_2_alg».proof.Proof.Spec
import proofs.«154140_j43344809951557_2_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-- The windows' index maps and the grid's coordinates, decided once over the 64 points. -/
theorem idx_facts : ∀ t : Fin cfg0.N, win0_0.index t 0 = t.val / 4 ∧ win0_0.index t 1 = 0 ∧ win0_1.index t 0 = t.val % 4
    ∧ win0_1.index t 1 = 0 ∧ win0_2.index t 0 = t.val / 4 ∧ ((grid0.coords t) 0).val = t.val / 4 ∧ ((grid0.coords t) 1).val = t.val % 4 :=
  (by decide +kernel : ∀ t : Fin grid0.N, win0_0.index t 0 = t.val / 4 ∧ win0_0.index t 1 = 0 ∧ win0_1.index t 0 = t.val % 4
    ∧ win0_1.index t 1 = 0 ∧ win0_2.index t 0 = t.val / 4 ∧ ((grid0.coords t) 0).val = t.val / 4 ∧ ((grid0.coords t) 1).val = t.val % 4)

theorem tlt (t : Fin cfg0.N) : t.val < 64 := lt_of_lt_of_eq t.isLt (show cfg0.N = 64 from N_0)

/-- The global row of local row `p` at point `t`, and the global column of local column `q`. -/
def rowOf (t : Fin cfg0.N) (p : Fin 512) : Fin 8192 := ⟨512 * (t.val / 4) + p.val, by have := tlt t; have := p.isLt; omega⟩
def colOf (t : Fin cfg0.N) (q : Fin 2048) : Fin 8192 := ⟨2048 * (t.val % 4) + q.val, by have := q.isLt; omega⟩

section Entry
variable (V : (c : Dev nD) → (b : Ref sig .tc) → Buf (Elt Ideal) ((c : Thread nD τ).loc b))

theorem iblk0_apply (c : Dev nD) (t : Fin cfg0.N) (p : Fin 512) (d : Fin 256) :
    (iblk V c 0 t : Vec Ideal S512x256 .bf16) (ix2 p d) = V c main_v17 (ix2 (rowOf t p) d) := by
  unfold iblk
  rw [View.read_apply]
  show V c main_v17 _ = V c main_v17 _
  congr 1
  funext a
  apply Fin.ext
  match a with
  | ⟨0, _⟩ => show win0_0.index t 0 * 512 + 1 * p.val = 512 * (t.val / 4) + p.val; rw [(idx_facts t).1]; omega
  | ⟨1, _⟩ => show win0_0.index t 1 * 256 + 1 * d.val = d.val; rw [(idx_facts t).2.1]; omega

theorem iblk1_apply (c : Dev nD) (t : Fin cfg0.N) (q : Fin 2048) (d : Fin 256) :
    (iblk V c 1 t : Vec Ideal S2048x256 .bf16) (ix2 q d) = V c main_v17 (ix2 (colOf t q) d) := by
  unfold iblk
  rw [View.read_apply]
  show V c main_v17 _ = V c main_v17 _
  congr 1
  funext a
  apply Fin.ext
  match a with
  | ⟨0, _⟩ => show win0_1.index t 0 * 2048 + 1 * q.val = 2048 * (t.val % 4) + q.val; rw [(idx_facts t).2.2.1]; omega
  | ⟨1, _⟩ => show win0_1.index t 1 * 256 + 1 * d.val = d.val; rw [(idx_facts t).2.2.2.1]; omega

end Entry

/-! ## The product, doubled and exponentiated -/

local notation "DD" => dot_S512x256_S256x2048_S512x2048_1_0_0_1_n_n

theorem dd_l0 (i : S512x2048.Idx) (q : (dot_S512x256_S256x2048_S512x2048_1_0_0_1_n_n).contr.Idx) :
    ((dot_S512x256_S256x2048_S512x2048_1_0_0_1_n_n).lhsIdx i q 0).val = (i 0).val := by
  unfold DotDims.lhsIdx
  rw [dif_neg (show ¬(0 : Fin S512x256.rank) ∈ (dot_S512x256_S256x2048_S512x2048_1_0_0_1_n_n).lhsBatch by decide), dif_pos (show (0 : Fin S512x256.rank) ∈ (dot_S512x256_S256x2048_S512x2048_1_0_0_1_n_n).lhsNonContracting by decide)]
  rfl
theorem dd_l1 (i : S512x2048.Idx) (q : (dot_S512x256_S256x2048_S512x2048_1_0_0_1_n_n).contr.Idx) :
    ((dot_S512x256_S256x2048_S512x2048_1_0_0_1_n_n).lhsIdx i q 1).val = (q ⟨0, by decide⟩).val :=
  (dot_S512x256_S256x2048_S512x2048_1_0_0_1_n_n).lhsIdx_val_of_single rfl i q
theorem dd_r0 (i : S512x2048.Idx) (q : (dot_S512x256_S256x2048_S512x2048_1_0_0_1_n_n).contr.Idx) :
    ((dot_S512x256_S256x2048_S512x2048_1_0_0_1_n_n).rhsIdx i q 0).val = (q ⟨0, by decide⟩).val :=
  (dot_S512x256_S256x2048_S512x2048_1_0_0_1_n_n).rhsIdx_val_of_single rfl i q
theorem dd_r1 (i : S512x2048.Idx) (q : (dot_S512x256_S256x2048_S512x2048_1_0_0_1_n_n).contr.Idx) :
    ((dot_S512x256_S256x2048_S512x2048_1_0_0_1_n_n).rhsIdx i q 1).val = (i 1).val := by
  unfold DotDims.rhsIdx
  rw [dif_neg (show ¬(1 : Fin S256x2048.rank) ∈ (dot_S512x256_S256x2048_S512x2048_1_0_0_1_n_n).rhsBatch by decide), dif_pos (show (1 : Fin S256x2048.rank) ∈ (dot_S512x256_S256x2048_S512x2048_1_0_0_1_n_n).rhsNonContracting by decide)]
  rfl

/-- Entry (p, q) of the exponentiated tile. -/
theorem pay2_apply (x0 : Vec Ideal S512x256 .bf16) (x1 : Vec Ideal S2048x256 .bf16) (p : Fin 512) (q : Fin 2048) :
    k0_pay2 (F := Ideal) x0 x1 (ix2 p q)
      = Ideal.exp ((∑ d : Fin 256, x0 (ix2 p d) * x1 (ix2 q d)) * Ideal.ofBits .f32 0x40000000#32) := by
  unfold k0_pay2
  simp only [shapeCast_self]
  show Ideal.exp ((FloatOps.matmul (F := Ideal) dot_S512x256_S256x2048_S512x2048_1_0_0_1_n_n none (x0 : FVec Ideal S512x256 .bf16)
      (transpose S256x2048 [1, 0] (x1 : FVec Ideal S2048x256 .bf16) transposes_S2048x256_p1_0_S256x2048) (constant S512x2048 .f32 0x00000000#32) (ix2 p q) : EReal)
      * Ideal.ofBits .f32 0x40000000#32) = _
  rw [Cert.LibPlainDot.matmul_zero_plain dot_S512x256_S256x2048_S512x2048_1_0_0_1_n_n rfl rfl dd_l0 dd_l1 dd_r0 dd_r1 none x0 _ p q]
  congr 2
  refine Finset.sum_congr rfl fun d _ => ?_
  rw [transpose_apply [1, 0] x1 transposes_S2048x256_p1_0_S256x2048 (ix2 d q) (ix2 q d)
    (fun b => by match b with | ⟨0, _⟩ => rfl | ⟨1, _⟩ => rfl)]

/-! ## The mask and the two accumulate steps -/

/-- The two 32-bit index words differ exactly when the global indices differ: below 8192 nothing wraps. -/
theorem mask_bit (i0 j p q : ℕ) (hi : i0 < 16) (hj : j < 4) (hp : p < 512) (hq : q < 2048) :
    IntOp.cmpi .ne (IntOp.addi (BitVec.ofNat 32 p) (Scalar.muli (BitVec.ofNat 32 i0) 512#32))
      (IntOp.addi (BitVec.ofNat 32 q) (Scalar.muli (BitVec.ofNat 32 j) 2048#32))
      = if 512 * i0 + p = 2048 * j + q then 0#1 else 1#1 := by
  unfold IntOp.cmpi IntOp.addi Scalar.muli IntOp.muli
  by_cases h : 512 * i0 + p = 2048 * j + q
  · rw [if_pos h]
    have e : BitVec.ofNat 32 p + BitVec.ofNat 32 i0 * 512#32 = BitVec.ofNat 32 q + BitVec.ofNat 32 j * 2048#32 := by
      bv_omega
    simp [e]
  · rw [if_neg h]
    have e : BitVec.ofNat 32 p + BitVec.ofNat 32 i0 * 512#32 ≠ BitVec.ofNat 32 q + BitVec.ofNat 32 j * 2048#32 := by
      bv_omega
    have hb : ((BitVec.ofNat 32 p + BitVec.ofNat 32 i0 * 512#32) != (BitVec.ofNat 32 q + BitVec.ofNat 32 j * 2048#32)) = true :=
      bne_iff_ne.mpr e
    simp only [hb]
    rfl

/-- The zero block. -/
theorem pay1_apply (p : Fin 512) : k0_pay1 (F := Ideal) (ix1 p) = 0 := by
  unfold k0_pay1
  simp only [shapeCast_self]
  exact Cert.Spec.ofBits_zero

/-- A row's sum over the tile's 2048 columns. -/
theorem rowsum_apply (src : FVec Ideal S512x2048 .f32) (hφ : FKind.Formats .f32)
    (hacc : (0x00000000#32 : BitVec 32) = 0x00000000#32) (p : Fin 512) :
    multiReduction .add [1] S512 src 0x00000000#32 reduces_S512x2048_S512 hφ hacc (ix1 p) = ∑ q : Fin 2048, src (ix2 p q) :=
  (Ideal.multiReduction_add_single src 0x00000000#32 reduces_S512x2048_S512 hφ hacc (ix1 p)).trans
    (Finset.sum_congr rfl fun q _ => congrArg src (funext fun a => by
      match a with
      | ⟨0, _⟩ => rfl
      | ⟨1, _⟩ => rfl))

/-- The masked step: the accumulator's entry plus the row's sum of the tile's entries off the diagonal. -/
theorem pay3_apply (t : Fin cfg0.N) (x0 : Vec Ideal S512x256 .bf16) (x1 : Vec Ideal S2048x256 .bf16) (a : Vec Ideal S512 .f32)
    (p : Fin 512) :
    k0_pay3 (F := Ideal) (grid0.coords t) x0 x1 a (ix1 p)
      = a (ix1 p) + ∑ q : Fin 2048, (if rowOf t p = colOf t q then (0 : EReal) else k0_pay2 (F := Ideal) x0 x1 (ix2 p q)) := by
  unfold k0_pay3
  simp only [shapeCast_self]
  rw [addf_apply]
  congr 1
  refine (rowsum_apply _ _ _ p).trans ?_
  refine Finset.sum_congr rfl fun q _ => ?_
  rw [select_apply, broadcast_apply]
  show Scalar.select (IntOp.cmpi .ne
      (IntOp.addi (iota .tc S512x2048 32 [0] iota_S512x2048_d0_w32 (ix2 p q)) (Scalar.muli (BitVec.ofNat 32 ((grid0.coords t) 0).val) 512#32))
      (IntOp.addi (iota .tc S512x2048 32 [1] iota_S512x2048_d1_w32 (ix2 p q)) (Scalar.muli (BitVec.ofNat 32 ((grid0.coords t) 1).val) 2048#32)))
      (k0_pay2 (F := Ideal) x0 x1 (ix2 p q)) (Ideal.ofBits .f32 0x00000000#32) = _
  rw [iota_single_apply, iota_single_apply, (idx_facts t).2.2.2.2.2.1, (idx_facts t).2.2.2.2.2.2]
  have ht := tlt t
  rw [show ((ix2 p q : S512x2048.Idx) 0).val = p.val from rfl, show ((ix2 p q : S512x2048.Idx) 1).val = q.val from rfl,
    mask_bit (t.val / 4) (t.val % 4) p.val q.val (by omega) (by omega) p.isLt q.isLt]
  unfold Scalar.select
  by_cases h : 512 * (t.val / 4) + p.val = 2048 * (t.val % 4) + q.val
  · rw [if_pos h, if_pos (show rowOf t p = colOf t q from Fin.ext h), if_neg (by decide), Cert.Spec.ofBits_zero]
  · rw [if_neg h, if_neg (show ¬ rowOf t p = colOf t q from fun e => h (congrArg Fin.val e)), if_pos (by decide)]

/-- The plain step: the accumulator's entry plus the row's sum of the tile's entries. -/
theorem pay4_apply (x0 : Vec Ideal S512x256 .bf16) (x1 : Vec Ideal S2048x256 .bf16) (a : Vec Ideal S512 .f32) (p : Fin 512) :
    k0_pay4 (F := Ideal) x0 x1 a (ix1 p) = a (ix1 p) + ∑ q : Fin 2048, k0_pay2 (F := Ideal) x0 x1 (ix2 p q) := by
  unfold k0_pay4
  simp only [shapeCast_self]
  rw [addf_apply]
  congr 1
  exact rowsum_apply _ _ _ p

/-- Where the tile misses the diagonal no global row index equals a global column index. -/
theorem off_diag (t : Fin cfg0.N) (h1 : ¬ t.val / 16 = t.val % 4) (p : Fin 512) (q : Fin 2048) : ¬ rowOf t p = colOf t q := by
  intro e
  have := congrArg Fin.val e
  have hp := p.isLt
  have hq := q.isLt
  have ht := tlt t
  simp only [rowOf, colOf] at this
  omega

end Cert.KernelIdeal.Hand

end
-- ==== Proof.Gram.lean ====
/-
  The two quantities both programs are built from, for a matrix A of 8192 rows: the dot product of two rows, and the
  exponential of twice that dot product with the diagonal removed.
-/
import Idealize.ShloMosaic.PureOps.Ideal
import Idealize.ShloMosaic.Lib.ValueIdx

noncomputable section

open scoped BigOperators

namespace Cert.Gram

open Idealize.ShloMosaic Idealize.ShloMosaic.ValueIdx

/-- The dot product of rows `r` and `k`. -/
def dotRows (A : (⟨2, ![8192, 256]⟩ : Shape).Idx → EReal) (r k : Fin 8192) : EReal := ∑ d : Fin 256, A (ix2 r d) * A (ix2 k d)

/-- exp(2 · ⟨row r, row k⟩) off the diagonal, zero on it. -/
def offDiagExp (A : (⟨2, ![8192, 256]⟩ : Shape).Idx → EReal) (r k : Fin 8192) : EReal :=
  if r = k then 0 else Ideal.exp (dotRows A r k * Ideal.ofBits .f32 0x40000000#32)

/-- A row's denominator: the sum over all columns. -/
def denom (A : (⟨2, ![8192, 256]⟩ : Shape).Idx → EReal) : (⟨1, ![8192]⟩ : Shape).Idx → EReal :=
  fun i => ∑ k : Fin 8192, offDiagExp A (i 0) k

end Cert.Gram

end
-- ==== Proof.KI.Den.lean ====
/-
  The denominators' array after the region. The accumulator after point t is the sum, over the column tiles visited so far
  in t's row tile, of the tile's row sums of the off-diagonal exponentials (by induction on the point: a reset at column
  tile 0, one more tile's sums at each later point). At column tile 3 all four tiles are in, which is the sum over all
  8192 columns; that is what the point writes back, and the sixteen write-backs cover the array.
-/
import proofs.«154140_j43344809951557_2_alg».proof.Proof.KI.Tile
import proofs.«154140_j43344809951557_2_alg».proof.Proof.Gram

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators
open Cert.Gram

section Entry
variable (V : (c : Dev nD) → (b : Ref sig .tc) → Buf (Elt Ideal) ((c : Thread nD τ).loc b))

/-- The stacked rows as the region finds them. -/
abbrev rows (c : Dev nD) : (⟨2, ![8192, 256]⟩ : Shape).Idx → EReal := V c main_v17

/-- An entry of the exponentiated tile is the exponential of twice the dot product of its two global rows. -/
theorem tile_entry (c : Dev nD) (t : Fin cfg0.N) (p : Fin 512) (q : Fin 2048) :
    k0_pay2 (F := Ideal) (iblk V c 0 t) (iblk V c 1 t) (ix2 p q)
      = Ideal.exp (dotRows (rows V c) (rowOf t p) (colOf t q) * Ideal.ofBits .f32 0x40000000#32) := by
  rw [pay2_apply]
  unfold dotRows
  congr 2
  refine Finset.sum_congr rfl fun d _ => ?_
  rw [iblk0_apply, iblk1_apply]

/-- The masked step at point `t`. -/
theorem stepM (c : Dev nD) (t : Fin cfg0.N) (a : Vec Ideal S512 .f32) (p : Fin 512) :
    k0_pay3 (F := Ideal) (grid0.coords t) (iblk V c 0 t) (iblk V c 1 t) a (ix1 p)
      = a (ix1 p) + ∑ q : Fin 2048, offDiagExp (rows V c) (rowOf t p) (colOf t q) := by
  rw [pay3_apply]
  congr 1
  refine Finset.sum_congr rfl fun q _ => ?_
  unfold offDiagExp
  rw [tile_entry]

/-- The plain step at a point whose tile misses the diagonal. -/
theorem stepP (c : Dev nD) (t : Fin cfg0.N) (h1 : ¬ t.val / 16 = t.val % 4) (a : Vec Ideal S512 .f32) (p : Fin 512) :
    k0_pay4 (F := Ideal) (iblk V c 0 t) (iblk V c 1 t) a (ix1 p)
      = a (ix1 p) + ∑ q : Fin 2048, offDiagExp (rows V c) (rowOf t p) (colOf t q) := by
  rw [pay4_apply]
  congr 1
  refine Finset.sum_congr rfl fun q _ => ?_
  unfold offDiagExp
  rw [if_neg (off_diag t h1 p q), tile_entry]

/-- One tile's row sum, as a function of the point's position (zero past the grid). -/
def tileSum (c : Dev nD) (n : ℕ) (p : Fin 512) : EReal :=
  if h : n < cfg0.N then ∑ q : Fin 2048, offDiagExp (rows V c) (rowOf ⟨n, h⟩ p) (colOf ⟨n, h⟩ q) else 0

/-- THE ACCUMULATOR after point `n`: the tiles of its row tile visited so far, summed. -/
theorem acc_apply (c : Dev nD) : ∀ (n : ℕ) (h : n < cfg0.N) (p : Fin 512),
    acc V c n h (ix1 p) = ∑ j ∈ Finset.range (n % 4 + 1), tileSum V c (4 * (n / 4) + j) p
  | 0, h, p => by
    unfold acc
    rw [stepM V c ⟨0, h⟩, pay1_apply, zero_add]
    show _ = ∑ j ∈ Finset.range 1, tileSum V c (0 + j) p
    rw [Finset.sum_range_one]
    unfold tileSum
    rw [dif_pos (show 0 + 0 < cfg0.N from h)]
  | n + 1, h, p => by
    have ih := acc_apply c n (Nat.lt_of_succ_lt h) p
    unfold acc
    have hT : tileSum V c (n + 1) p = ∑ q : Fin 2048, offDiagExp (rows V c) (rowOf ⟨n + 1, h⟩ p) (colOf ⟨n + 1, h⟩ q) := dif_pos h
    by_cases h0 : (n + 1) % 4 = 0
    · have hr : ∑ j ∈ Finset.range ((n + 1) % 4 + 1), tileSum V c (4 * ((n + 1) / 4) + j) p = tileSum V c (n + 1) p := by
        rw [h0, Finset.sum_range_one]
        congr 1
        omega
      rw [hr, hT]
      by_cases h1 : (n + 1) / 16 = (n + 1) % 4
      · rw [if_pos h1, if_pos h0, stepM V c ⟨n + 1, h⟩, pay1_apply, zero_add]
      · rw [if_neg h1, if_pos h0, stepP V c ⟨n + 1, h⟩ h1, pay1_apply, zero_add]
    · have hr : ∑ j ∈ Finset.range ((n + 1) % 4 + 1), tileSum V c (4 * ((n + 1) / 4) + j) p
          = (∑ j ∈ Finset.range (n % 4 + 1), tileSum V c (4 * (n / 4) + j) p) + tileSum V c (n + 1) p := by
        have e1 : (n + 1) % 4 = n % 4 + 1 := by omega
        have e2 : (n + 1) / 4 = n / 4 := by omega
        rw [e1, e2, Finset.sum_range_succ]
        congr 2
        omega
      rw [hr, hT, ← ih]
      by_cases h1 : (n + 1) / 16 = (n + 1) % 4
      · rw [if_pos h1, if_neg h0, stepM V c ⟨n + 1, h⟩]
      · rw [if_neg h1, if_neg h0, stepP V c ⟨n + 1, h⟩ h1]

/-- At column tile 3 the accumulator's entry is the row's whole denominator. -/
theorem acc_last (c : Dev nD) (t : Fin cfg0.N) (h3 : t.val % 4 = 3) (p : Fin 512) :
    acc V c t.val t.isLt (ix1 p) = ∑ k : Fin 8192, offDiagExp (rows V c) (rowOf t p) k := by
  have ht := tlt t
  rw [acc_apply, h3, Cert.Spec.sum_tiles, ← Cert.Spec.sum_fin4 (fun j => tileSum V c (4 * (t.val / 4) + j) p)]
  refine Finset.sum_congr rfl fun j _ => ?_
  have hj := j.isLt
  unfold tileSum
  rw [dif_pos (show 4 * (t.val / 4) + j.val < cfg0.N from lt_of_lt_of_eq (by omega : 4 * (t.val / 4) + j.val < 64) (show (64 : ℕ) = cfg0.N from N_0.symm))]
  refine Finset.sum_congr rfl fun q _ => ?_
  have hq := q.isLt
  congr 1
  · apply Fin.ext
    simp only [rowOf]
    omega
  · apply Fin.ext
    simp only [colOf]
    omega

/-- WHAT A WRITE-BACK WRITES: the block of the denominators. -/
theorem flushed_eq (c : Dev nD) (t : Fin cfg0.N) (hf : (cfg0.win 2).flush t = true) :
    (dats V 0 c).flushed 2 t = ((cfg0.win 2).blk t).view.read (Elt Ideal) (denom (rows V c)) := by
  have h3 : t.val % 4 = 3 := (flush0_2 t).mp hf
  show (cfg0.win 2).cut (grid0.coords t) ((dats V 0 c).after 2 t) = _
  rw [after0_2, outsAt_fst V c t h3]
  funext y
  obtain ⟨p, rfl⟩ : ∃ p : Fin 512, y = ix1 p := ⟨y 0, eq_ix1 y⟩
  show acc V c t.val t.isLt (ix1 p) = denom (rows V c) (((cfg0.win 2).blk t).view.emb (ix1 p))
  rw [acc_last V c t h3 p]
  have e : rowOf t p = (((cfg0.win 2).blk t).view.emb (ix1 p)) 0 := Fin.ext (by
    show 512 * (t.val / 4) + p.val = win0_2.index t 0 * 512 + 1 * p.val
    rw [(idx_facts t).2.2.2.2.1]
    omega)
  unfold denom
  rw [e]

/-- An index is in point `t`'s block iff it is in the block's range of 512 rows. -/
theorem mem_blk (t : Fin cfg0.N) (i : S8192.Idx) :
    i ∈ ((cfg0.win 2).blk t).view.set ↔ ∀ a : Fin 1, win0_2.index t a * S512.size a ≤ (i a).val ∧ (i a).val < win0_2.index t a * S512.size a + S512.size a := by
  show i ∈ ((View.whole main_v18).slice (win0_2.rect t)).set ↔ _
  rw [View.set_slice_whole, Rect.mem_set_unit]
  exact Iff.rfl

/-- The sixteen write-backs cover the array. -/
theorem cover (i : S8192.Idx) : ∃ t : Fin cfg0.N, (cfg0.win 2).flush t = true ∧ i ∈ ((cfg0.win 2).blk t).view.set := by
  have hi : (i 0).val < 8192 := (i 0).isLt
  let t : Fin cfg0.N := ⟨4 * ((i 0).val / 512) + 3, lt_of_lt_of_eq (by omega : 4 * ((i 0).val / 512) + 3 < 64) (show (64 : ℕ) = cfg0.N from N_0.symm)⟩
  refine ⟨t, (flush0_2 t).mpr (by show (4 * ((i 0).val / 512) + 3) % 4 = 3; omega), ?_⟩
  rw [mem_blk]
  intro a
  obtain rfl : a = 0 := Subsingleton.elim _ _
  show win0_2.index t 0 * 512 ≤ (i 0).val ∧ (i 0).val < win0_2.index t 0 * 512 + 512
  rw [(idx_facts t).2.2.2.2.1]
  show (4 * ((i 0).val / 512) + 3) / 4 * 512 ≤ (i 0).val ∧ (i 0).val < (4 * ((i 0).val / 512) + 3) / 4 * 512 + 512
  omega

/-- THE DENOMINATORS' ARRAY after the region. -/
theorem final_den (c : Dev nD) : (dats V 0 c).arrAt 2 cfg0.N = denom (rows V c) :=
  (dats V 0 c).arrAt_eq_of_cover 2 (denom (rows V c)) (flushed_eq V c) cover

end Entry

end Cert.KernelIdeal.Hand

end
-- ==== Proof.Loss.lean ====
/-
  The last steps both programs share, as functions of the 8192 numerators and the 8192 denominators: the mean over the
  rows of minus the logarithm of numerator over denominator. And the numerators as the kernel's program computes them
  from the two normalised halves: the exponential of the row-by-row dot product divided by 1/2, once for each half.
-/
import Idealize.ShloMosaic.PureOps
import Idealize.ShloMosaic.PureOps.Ideal

noncomputable section

namespace Cert.Loss

open Idealize.ShloMosaic

variable {F : FTy → Type} [FloatOps F]

abbrev T4096x256 : Shape := ⟨2, ![4096, 256]⟩
abbrev T4096 : Shape := ⟨1, ![4096]⟩
abbrev T8192 : Shape := ⟨1, ![8192]⟩
abbrev T0 : Shape := ⟨0, ![]⟩

/-- mean over the rows of −log(numerator / denominator). -/
def lossOf (num den : FVec F T8192 .f32) : FVec F T0 .f32 :=
  Host.divf (Host.reduceAdd (Host.negf (Host.log (Host.divf num den))) (constant T0 .f32 0x00000000#32)
    (by decide : T8192.ReducesTo [0] T0) (by decide : 0 < T0.numel)) (constant T0 .f32 0x46000000#32)

/-- exp(⟨zi row, zj row⟩ / (1/2)) for each of the 4096 rows. -/
def halfNum (zi zj : FVec F T4096x256 .f32) : FVec F T4096 .f32 :=
  Host.exp (Host.divf (Host.reduceAdd (mulf zi zj) (constant T0 .f32 0x00000000#32)
    (by decide : T4096x256.ReducesTo [1] T4096) (by decide : 0 < T0.numel))
    (broadcastInDim T4096 ![] (by decide : T0.BroadcastsInDim T4096 (![] : Fin 0 → Fin T4096.rank)) (constant T0 .f32 0x3F000000#32)))

/-- The numerators: the 4096 values, twice. -/
def numOf (zi zj : FVec F T4096x256 .f32) : FVec F T8192 .f32 :=
  concatenate T8192 0 [⟨T4096, halfNum zi zj⟩, ⟨T4096, halfNum zi zj⟩] (by decide : Shape.Concatenates [T4096, T4096] T8192 0)

end Cert.Loss

end
-- ==== Proof.RefRead.lean ====
/-
  The reference program's result, read one operation at a time at an index, at exact arithmetic.

  * Its denominators: entry (r, k) of the masked matrix is one minus the indicator of r = k (compared as 32-bit words,
    which below 8192 is comparing the indices) times the exponential of the dot product of rows r and k divided by 1/2;
    that is the off-diagonal exponential of twice the dot product, and the row sum from zero is the row's denominator.
  * Its result is the shared last steps of its numerators and denominators.
-/
import proofs.«154140_j43344809951557_2_alg».proof.Proof.Gen.ReferenceIdeal.Read
import proofs.«154140_j43344809951557_2_alg».proof.Proof.Spec
import proofs.«154140_j43344809951557_2_alg».proof.Proof.Gram
import proofs.«154140_j43344809951557_2_alg».proof.Proof.Loss
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Gram
open scoped BigOperators

abbrev X : Type := (⟨S4096x256, .f32⟩ : BufTy).Contents (Elt Ideal)

/-- The 32-bit words of two indices below 8192 are equal exactly when the indices are. -/
theorem eq_bit (r k : ℕ) (hr : r < 8192) (hk : k < 8192) :
    IntOp.cmpi .eq (IntOp.addi (BitVec.ofNat 32 r) 0#32) (BitVec.ofNat 32 k) = if r = k then 1#1 else 0#1 := by
  unfold IntOp.cmpi IntOp.addi
  by_cases h : r = k
  · subst h
    rw [if_pos rfl]
    simp
  · rw [if_neg h]
    have e : BitVec.ofNat 32 r + 0#32 ≠ BitVec.ofNat 32 k := by bv_omega
    have hb : ((BitVec.ofNat 32 r + 0#32) == BitVec.ofNat 32 k) = false := beq_eq_false_iff_ne.mpr e
    simp only [hb]
    rfl

/-- Entry (r, k) of the masked exponentials. -/
theorem den_entry (x0 x1 : X) (r k : Fin 8192) :
    val_main_v36 (F := Ideal) x0 x1 (ix2 r k) = offDiagExp (val_main_v16 (F := Ideal) x0 x1) r k := by
  rw [val_main_v36_apply, val_main_v29_apply, val_main_v28_apply, val_main_cst_3_apply, val_main_v27_apply, val_main_v26_apply,
    val_main_v25_apply, val_main_v22_apply, val_main_v24_apply, val_main_c_apply, val_main_v23_apply, val_main_v35_apply,
    val_main_v34_apply, val_main_v33_apply, val_main_cst_5_apply, val_main_v18_apply]
  simp only [Ideal.mulf_def, Ideal.subf_def, Ideal.hostUnary_exp_def, Ideal.hostDivf_def, Ideal.ofBits_def]
  rw [show ((ix2 r k : S8192x8192.Idx) 0).val = r.val from rfl, show ((ix2 r k : S8192x8192.Idx) 1).val = k.val from rfl,
    eq_bit r.val k.val r.isLt k.isLt]
  have hs : (∑ d : Fin 256, val_main_v16 (F := Ideal) x0 x1 (lidx_main_v18 (ix2 r k) d) * val_main_v17 (F := Ideal) x0 x1 (ridx_main_v18 (ix2 r k) d))
      = dotRows (val_main_v16 (F := Ideal) x0 x1) r k := by
    unfold dotRows
    refine Finset.sum_congr rfl fun d _ => ?_
    rw [val_main_v17_apply]
    have e1 : lidx_main_v18 (ix2 r k) d = ix2 r d := funext fun a => by
      match a with
      | ⟨0, _⟩ => rfl
      | ⟨1, _⟩ => rfl
    have e2 : idx_main_v17 (ridx_main_v18 (ix2 r k) d) = ix2 k d := funext fun a => by
      match a with
      | ⟨0, _⟩ => rfl
      | ⟨1, _⟩ => rfl
    rw [e1, e2]
  rw [hs]
  unfold offDiagExp
  by_cases h : r = k
  · rw [if_pos h, if_pos (congrArg Fin.val h)]
    exact Cert.Spec.mask_diag _
  · rw [if_neg h, if_neg (fun e => h (Fin.ext e))]
    exact (Cert.Spec.mask_off _).trans (congrArg Ideal.exp (Cert.Spec.scale_eq _).symm)

/-- The reference's denominators. -/
theorem den_eq (x0 x1 : X) : val_main_v37 (F := Ideal) x0 x1 = denom (val_main_v16 (F := Ideal) x0 x1) := by
  funext i
  obtain ⟨r, rfl⟩ : ∃ r : Fin 8192, i = ix1 r := ⟨i 0, eq_ix1 i⟩
  rw [val_main_v37_apply, val_main_cst_6_apply]
  simp only [Ideal.ofBits_def]
  rw [Cert.Spec.ofBits_zero, zero_add]
  unfold denom
  refine Finset.sum_congr rfl fun k _ => ?_
  have e : idx_main_v37 (ix1 r) k = ix2 r k := funext fun a => by
    match a with
    | ⟨0, _⟩ => rfl
    | ⟨1, _⟩ => rfl
  rw [e, den_entry]

/-- The reference's result is the shared last steps of its numerators and its denominators. -/
theorem result_loss (x0 x1 : X) :
    (val_main_v42 (F := Ideal) x0 x1 : FVec Ideal Cert.Loss.T0 .f32)
      = Cert.Loss.lossOf (F := Ideal) (val_main_v32 (F := Ideal) x0 x1 : FVec Ideal Cert.Loss.T8192 .f32) (val_main_v37 (F := Ideal) x0 x1 : FVec Ideal Cert.Loss.T8192 .f32) := rfl

end Cert.ReferenceIdeal.RefValue

end
-- ==== Proof.KI.Host.lean ====
/-
  The kernel's program around its region, at exact arithmetic. Before the region it normalises the rows of the two
  arguments (the same operations, in the same order, as the reference's) and stacks them; the conversion to the narrower
  float format is the identity on extended reals, so the region reads the stacked normalised rows themselves. After the
  region it forms the numerators from the two normalised halves and applies the shared last steps to them and to the
  denominators the region left.
-/
import proofs.«154140_j43344809951557_2_alg».proof.Proof.KI.Den
import proofs.«154140_j43344809951557_2_alg».proof.Proof.Loss
import proofs.«154140_j43344809951557_2_alg».proof.Proof.RefRead
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo
open Cert.Gram

variable (m : (ℓ : Loc nD τ sig) → Buf (Elt Ideal) ℓ) (ρ : Dev nD → PrngReg)

/-- The first argument's rows, normalised (the reference's operations, named there). -/
abbrev zi (c : Dev nD) := Cert.ReferenceIdeal.Read.val_main_v7 (F := Ideal) (m ((c : Thread nD τ).loc main_arg0))
/-- The second argument's rows, normalised. -/
abbrev zj (c : Dev nD) := Cert.ReferenceIdeal.Read.val_main_v15 (F := Ideal) (m ((c : Thread nD τ).loc main_arg1))
/-- The two stacked. -/
abbrev reps (c : Dev nD) := Cert.ReferenceIdeal.Read.val_main_v16 (F := Ideal) (m ((c : Thread nD τ).loc main_arg0)) (m ((c : Thread nD τ).loc main_arg1))

theorem W1_v7 (c : Dev nD) : W1 m ρ c (Proc.devRef .tc main_v7) = zi m c := by
  show StableHlo.after hostOps0 (W0 m ρ c) (Proc.devRef .tc main_v7) = _
  after_results
  rfl

theorem W1_v15 (c : Dev nD) : W1 m ρ c (Proc.devRef .tc main_v15) = zj m c := by
  show StableHlo.after hostOps0 (W0 m ρ c) (Proc.devRef .tc main_v15) = _
  after_results
  rfl

/-- What the region reads: the stacked normalised rows. -/
theorem rows_eq (c : Dev nD) : rows (V1 m ρ) c = reps m c := by
  show StableHlo.after hostOps0 (W0 m ρ c) (Proc.devRef .tc main_v17) = _
  after_results
  rfl

/-- The program's result in terms of what its last stretch finds. -/
theorem W3_v29 (c : Dev nD) : (W3 m ρ c (Proc.devRef .tc main_v29) : FVec Ideal Cert.Loss.T0 .f32)
    = Cert.Loss.lossOf (F := Ideal) (Cert.Loss.numOf (F := Ideal) (W2 m ρ c (Proc.devRef .tc main_v7) : FVec Ideal Cert.Loss.T4096x256 .f32)
        (W2 m ρ c (Proc.devRef .tc main_v15) : FVec Ideal Cert.Loss.T4096x256 .f32)) (W2 m ρ c (Proc.devRef .tc main_v18) : FVec Ideal Cert.Loss.T8192 .f32) := by
  show StableHlo.after hostOps1 (W2 m ρ c) (Proc.devRef .tc main_v29) = _
  after_results
  rfl

/-- THE KERNEL'S RESULT: the shared last steps of the numerators of the two normalised halves and the denominators of
    the stacked rows. -/
theorem kernel_result (c : Dev nD) : (W3 m ρ c (Proc.devRef .tc main_v29) : FVec Ideal Cert.Loss.T0 .f32)
    = Cert.Loss.lossOf (F := Ideal) (Cert.Loss.numOf (F := Ideal) (zi m c : FVec Ideal Cert.Loss.T4096x256 .f32) (zj m c : FVec Ideal Cert.Loss.T4096x256 .f32))
        (denom (reps m c) : FVec Ideal Cert.Loss.T8192 .f32) := by
  rw [W3_v29, W2_of_ne m ρ c main_v7 (by decide), W2_of_ne m ρ c main_v15 (by decide), W2_v18, final_den, W1_v7, W1_v15, rows_eq]

end Cert.KernelIdeal.Hand

end
-- ==== Proof.RefNum.lean ====
/-
  The reference's numerators. Its two diagonals of the 8192 x 8192 matrix of dot products are gathers at index pairs it
  computes from counters: (k, 4096 + k) for the first, (4096 + k, k) for the second, k below 4096 (both counters are
  far below 2^31, so the "negative index wraps" branch of the index computation is never taken, and reading the words
  as signed numbers gives the numbers back). Entry (r, c) of the matrix is the dot product of rows r and c of the
  stacked normalised rows; row k is row k of the first half and row 4096 + k is row k of the second half, so both
  diagonals are the row-by-row dot products of the two halves (the second with its factors in the other order).
-/
import proofs.«154140_j43344809951557_2_alg».proof.Proof.RefRead

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Gram
open scoped BigOperators

/-! ## Words and numbers -/

theorem toInt_small (n : ℕ) (h : n < 2147483648) : (BitVec.ofNat 32 n).toInt = (n : ℤ) := by
  have h1 : (BitVec.ofNat 32 n).toNat = n := by simp [BitVec.toNat_ofNat]; omega
  rw [BitVec.toInt_eq_toNat_cond, h1]
  split
  · rfl
  · omega

theorem toIntNat_small (n : ℕ) (h : n < 2147483648) : (BitVec.ofNat 32 n).toInt.toNat = n := by
  rw [toInt_small n h]; simp

theorem slt_zero_false (n : ℕ) (h : n < 2147483648) : IntOp.cmpi .slt (BitVec.ofNat 32 n) 0#32 = 0#1 := by
  unfold IntOp.cmpi
  have hs : (BitVec.ofNat 32 n).slt 0#32 = false := by
    rw [BitVec.slt, toInt_small n h]
    simp
  simp only [hs]
  rfl

theorem add_small (a n : ℕ) (h : a + n < 4294967296) : IntOp.addi (BitVec.ofNat 32 a) (BitVec.ofNat 32 n) = BitVec.ofNat 32 (a + n) := by
  unfold IntOp.addi
  bv_omega

/-! ## The index pairs -/

theorem call0_row (k : Fin 4096) : val_main_call0_v8 (F := Ideal) (ix1 k) = BitVec.ofNat 32 k.val := by
  rw [val_main_call0_v8_apply, val_main_call0_v5_apply, val_main_call0_v0_apply, val_main_call0_v4_apply, val_main_call0_c_0_apply]
  show Scalar.select (IntOp.cmpi .slt (BitVec.ofNat 32 k.val) 0#32) _ _ = _
  rw [slt_zero_false k.val (by have := k.isLt; omega)]
  rfl

theorem call0_col (k : Fin 4096) : val_main_call0_v13 (F := Ideal) (ix1 k) = BitVec.ofNat 32 (4096 + k.val) := by
  have hk := k.isLt
  rw [val_main_call0_v13_apply, val_main_call0_v10_apply, val_main_call0_v3_apply, val_main_call0_v2_apply, val_main_call0_c_apply,
    val_main_call0_v1_apply, val_main_call0_v9_apply, val_main_call0_c_2_apply]
  show Scalar.select (IntOp.cmpi .slt (IntOp.addi (BitVec.ofNat 32 4096) (BitVec.ofNat 32 k.val)) 0#32) _
    (IntOp.addi (BitVec.ofNat 32 4096) (BitVec.ofNat 32 k.val)) = _
  rw [add_small 4096 k.val (by omega), slt_zero_false _ (by omega)]
  rfl

theorem call1_row (k : Fin 4096) : val_main_call1_v8 (F := Ideal) (ix1 k) = BitVec.ofNat 32 (4096 + k.val) := by
  have hk := k.isLt
  rw [val_main_call1_v8_apply, val_main_call1_v5_apply, val_main_call1_v3_apply, val_main_call1_v2_apply, val_main_call1_c_apply,
    val_main_call1_v1_apply, val_main_call1_v4_apply, val_main_call1_c_0_apply]
  show Scalar.select (IntOp.cmpi .slt (IntOp.addi (BitVec.ofNat 32 4096) (BitVec.ofNat 32 k.val)) 0#32) _
    (IntOp.addi (BitVec.ofNat 32 4096) (BitVec.ofNat 32 k.val)) = _
  rw [add_small 4096 k.val (by omega), slt_zero_false _ (by omega)]
  rfl

theorem call1_col (k : Fin 4096) : val_main_call1_v13 (F := Ideal) (ix1 k) = BitVec.ofNat 32 k.val := by
  rw [val_main_call1_v13_apply, val_main_call1_v10_apply, val_main_call1_v0_apply, val_main_call1_v9_apply, val_main_call1_c_2_apply]
  show Scalar.select (IntOp.cmpi .slt (BitVec.ofNat 32 k.val) 0#32) _ _ = _
  rw [slt_zero_false k.val (by have := k.isLt; omega)]
  rfl

/-- The first component of a pair is the row word, the second the column word. -/
theorem pair0 (u v : (⟨S4096x1, .i32⟩ : BufTy).Contents (Elt Ideal)) (k : Fin 4096) :
    concatenate S4096x2 1 [⟨S4096x1, u⟩, ⟨S4096x1, v⟩] concatenates_S4096x1_S4096x1_S4096x2_d1 (ix2 k (0 : Fin 2)) = u (ix2 k (0 : Fin 1)) :=
  concatenate_pair_apply_left (1 : Fin 2) u v concatenates_S4096x1_S4096x1_S4096x2_d1 (ix2 k (0 : Fin 2)) rfl (ix2 k (0 : Fin 1))
    (fun b => by match b with | ⟨0, _⟩ => rfl | ⟨1, _⟩ => rfl)

theorem pair1 (u v : (⟨S4096x1, .i32⟩ : BufTy).Contents (Elt Ideal)) (k : Fin 4096) :
    concatenate S4096x2 1 [⟨S4096x1, u⟩, ⟨S4096x1, v⟩] concatenates_S4096x1_S4096x1_S4096x2_d1 (ix2 k (1 : Fin 2)) = v (ix2 k (0 : Fin 1)) :=
  concatenate_pair_apply_right (1 : Fin 2) u v concatenates_S4096x1_S4096x1_S4096x2_d1 (ix2 k (1 : Fin 2)) rfl rfl (ix2 k (0 : Fin 1))
    (fun b hb => by match b with | ⟨0, _⟩ => rfl | ⟨1, _⟩ => exact absurd rfl hb) rfl

theorem col1 (k : Fin 4096) : idx_main_call0_v14 (ix2 k (0 : Fin 1)) = ix1 k := funext fun a => by match a with | ⟨0, _⟩ => rfl

/-! ## The gather at a pair -/

theorem gather_pair {α : Type} (x : S8192x8192.Idx → α) (idx : IVec S4096x2 32) (k : Fin 4096) (r c : Fin 8192)
    (h0 : (idx (ix2 k (0 : Fin 2))).toInt.toNat = r.val) (h1 : (idx (ix2 k (1 : Fin 2))).toInt.toNat = c.val) :
    Host.gather gather_S8192x8192_S4096x2_S4096_n_01_n_n_01_1_11 x idx (ix1 k) = x (ix2 r c) := by
  unfold Host.gather
  congr 1
  funext a
  refine Fin.ext ?_
  have hr := r.isLt
  have hc := c.isLt
  match a with
  | ⟨0, _⟩ =>
    show gather_S8192x8192_S4096x2_S4096_n_01_n_n_01_1_11.start (ix1 k) idx 0 + gather_S8192x8192_S4096x2_S4096_n_01_n_n_01_1_11.batchCoord (ix1 k) 0
      + gather_S8192x8192_S4096x2_S4096_n_01_n_n_01_1_11.offCoord (ix1 k) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap from by decide)]
    have hsi : gather_S8192x8192_S4096x2_S4096_n_01_n_n_01_1_11.siIdx (ix1 k) ⟨List.idxOf (0 : Fin 2) gather_S8192x8192_S4096x2_S4096_n_01_n_n_01_1_11.startIndexMap,
        List.idxOf_lt_length_iff.2 (by decide)⟩ = ix2 k (0 : Fin 2) := by
      funext b; refine Fin.ext ?_
      match b with
      | ⟨0, _⟩ => rfl
      | ⟨1, _⟩ => rfl
    rw [hsi, h0]
    show min r.val (8192 - 1) = r.val
    omega
  | ⟨1, _⟩ =>
    show gather_S8192x8192_S4096x2_S4096_n_01_n_n_01_1_11.start (ix1 k) idx 1 + gather_S8192x8192_S4096x2_S4096_n_01_n_n_01_1_11.batchCoord (ix1 k) 1
      + gather_S8192x8192_S4096x2_S4096_n_01_n_n_01_1_11.offCoord (ix1 k) 1 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap from by decide)]
    have hsi : gather_S8192x8192_S4096x2_S4096_n_01_n_n_01_1_11.siIdx (ix1 k) ⟨List.idxOf (1 : Fin 2) gather_S8192x8192_S4096x2_S4096_n_01_n_n_01_1_11.startIndexMap,
        List.idxOf_lt_length_iff.2 (by decide)⟩ = ix2 k (1 : Fin 2) := by
      funext b; refine Fin.ext ?_
      match b with
      | ⟨0, _⟩ => rfl
      | ⟨1, _⟩ => rfl
    rw [hsi, h1]
    show min c.val (8192 - 1) = c.val
    omega

/-! ## The matrix of dot products and the stacked rows -/

theorem sim_entry (x0 x1 : X) (r k : Fin 8192) :
    val_main_v18 (F := Ideal) x0 x1 (ix2 r k) = dotRows (val_main_v16 (F := Ideal) x0 x1) r k := by
  rw [val_main_v18_apply]
  unfold dotRows
  refine Finset.sum_congr rfl fun d _ => ?_
  rw [val_main_v17_apply]
  have e1 : lidx_main_v18 (ix2 r k) d = ix2 r d := funext fun a => by
    match a with
    | ⟨0, _⟩ => rfl
    | ⟨1, _⟩ => rfl
  have e2 : idx_main_v17 (ridx_main_v18 (ix2 r k) d) = ix2 k d := funext fun a => by
    match a with
    | ⟨0, _⟩ => rfl
    | ⟨1, _⟩ => rfl
  rw [e1, e2]

/-- Row k of the stack, k below 4096, is row k of the first half. -/
theorem reps_top (x0 x1 : X) (k : Fin 4096) (d : Fin 256) :
    val_main_v16 (F := Ideal) x0 x1 (ix2 (⟨k.val, by have := k.isLt; omega⟩ : Fin 8192) d) = val_main_v7 (F := Ideal) x0 (ix2 k d) := by
  unfold val_main_v16
  exact concatenate_pair_apply_left (t := S8192x256) (s₁ := S4096x256) (s₂ := S4096x256) (0 : Fin 2) (val_main_v7 (F := Ideal) x0) (val_main_v15 (F := Ideal) x1)
    concatenates_S4096x256_S4096x256_S8192x256_d0 (ix2 (⟨k.val, by have := k.isLt; omega⟩ : Fin 8192) d) rfl (ix2 k d)
    (fun b => by match b with | ⟨0, _⟩ => rfl | ⟨1, _⟩ => rfl)

/-- Row 4096 + k of the stack is row k of the second half. -/
theorem reps_bot (x0 x1 : X) (k : Fin 4096) (d : Fin 256) :
    val_main_v16 (F := Ideal) x0 x1 (ix2 (⟨4096 + k.val, by have := k.isLt; omega⟩ : Fin 8192) d) = val_main_v15 (F := Ideal) x1 (ix2 k d) := by
  unfold val_main_v16
  exact concatenate_pair_apply_right (t := S8192x256) (s₁ := S4096x256) (s₂ := S4096x256) (0 : Fin 2) (val_main_v7 (F := Ideal) x0) (val_main_v15 (F := Ideal) x1)
    concatenates_S4096x256_S4096x256_S8192x256_d0 (ix2 (⟨4096 + k.val, by have := k.isLt; omega⟩ : Fin 8192) d) rfl rfl (ix2 k d)
    (fun b hb => by match b with | ⟨0, _⟩ => exact absurd rfl hb | ⟨1, _⟩ => rfl) (by show k.val + 4096 = 4096 + k.val; omega)

/-! ## The two diagonals -/

/-- The first diagonal: entry k is the dot product of row k of the first half and row k of the second. -/
theorem diag0 (x0 x1 : X) (k : Fin 4096) :
    val_main_v19 (F := Ideal) x0 x1 (ix1 k) = ∑ d : Fin 256, val_main_v7 (F := Ideal) x0 (ix2 k d) * val_main_v15 (F := Ideal) x1 (ix2 k d) := by
  have hk := k.isLt
  unfold val_main_v19
  rw [gather_pair _ _ k ⟨k.val, by omega⟩ ⟨4096 + k.val, by omega⟩
    (by unfold val_main_call0_v16; rw [pair0, val_main_call0_v14_apply, col1, call0_row]; exact toIntNat_small _ (by omega))
    (by unfold val_main_call0_v16; rw [pair1, val_main_call0_v15_apply]
        rw [show idx_main_call0_v15 (ix2 k (0 : Fin 1)) = ix1 k from funext fun a => by match a with | ⟨0, _⟩ => rfl, call0_col]
        exact toIntNat_small _ (by omega)),
    sim_entry]
  unfold dotRows
  refine Finset.sum_congr rfl fun d _ => ?_
  rw [reps_top, reps_bot]

/-- The second diagonal: the same dot product, its factors in the other order. -/
theorem diag1 (x0 x1 : X) (k : Fin 4096) :
    val_main_v20 (F := Ideal) x0 x1 (ix1 k) = ∑ d : Fin 256, val_main_v7 (F := Ideal) x0 (ix2 k d) * val_main_v15 (F := Ideal) x1 (ix2 k d) := by
  have hk := k.isLt
  unfold val_main_v20
  rw [gather_pair _ _ k ⟨4096 + k.val, by omega⟩ ⟨k.val, by omega⟩
    (by unfold val_main_call1_v16; rw [pair0, val_main_call1_v14_apply]
        rw [show idx_main_call1_v14 (ix2 k (0 : Fin 1)) = ix1 k from funext fun a => by match a with | ⟨0, _⟩ => rfl, call1_row]
        exact toIntNat_small _ (by omega))
    (by unfold val_main_call1_v16; rw [pair1, val_main_call1_v15_apply]
        rw [show idx_main_call1_v15 (ix2 k (0 : Fin 1)) = ix1 k from funext fun a => by match a with | ⟨0, _⟩ => rfl, call1_col]
        exact toIntNat_small _ (by omega)),
    sim_entry]
  unfold dotRows
  refine Finset.sum_congr rfl fun d _ => ?_
  rw [reps_top, reps_bot, mul_comm]

/-! ## The numerators -/

/-- The kernel's half of the numerators at row k. -/
theorem halfNum_apply (zi zj : FVec Ideal Cert.Loss.T4096x256 .f32) (k : Fin 4096) :
    Cert.Loss.halfNum (F := Ideal) zi zj (ix1 k)
      = Ideal.exp (Ideal.div (∑ d : Fin 256, zi (ix2 k d) * zj (ix2 k d)) (Ideal.ofBits .f32 0x3F000000#32)) := by
  unfold Cert.Loss.halfNum
  show Ideal.exp (Ideal.div (Ideal.hostReduceAdd _ (mulf zi zj) (Ideal.ofBits .f32 0x00000000#32) (ix1 k)) (Ideal.ofBits .f32 0x3F000000#32)) = _
  rw [Ideal.hostReduceAdd_single _ (by decide : Cert.Loss.T4096x256.Reduces [1] Cert.Loss.T4096), Cert.Spec.ofBits_zero, zero_add]
  congr 2
  refine Finset.sum_congr rfl fun d _ => ?_
  exact congrArg (fun j => zi j * zj j) (funext fun a => by match a with | ⟨0, _⟩ => rfl | ⟨1, _⟩ => rfl)

/-- THE NUMERATORS agree. -/
theorem num_eq (x0 x1 : X) :
    (val_main_v32 (F := Ideal) x0 x1 : FVec Ideal Cert.Loss.T8192 .f32)
      = Cert.Loss.numOf (F := Ideal) (val_main_v7 (F := Ideal) x0 : FVec Ideal Cert.Loss.T4096x256 .f32) (val_main_v15 (F := Ideal) x1 : FVec Ideal Cert.Loss.T4096x256 .f32) := by
  funext i
  obtain ⟨r, rfl⟩ : ∃ r : Fin 8192, i = ix1 r := ⟨i 0, eq_ix1 i⟩
  have hr := r.isLt
  rw [val_main_v32_apply, val_main_v31_apply, val_main_v30_apply, val_main_cst_4_apply]
  simp only [Ideal.hostUnary_exp_def, Ideal.hostDivf_def, Ideal.ofBits_def]
  unfold val_main_v21 Cert.Loss.numOf
  by_cases h : r.val < 4096
  · have eL := concatenate_pair_apply_left (t := S8192) (s₁ := S4096) (s₂ := S4096) (0 : Fin 1) (val_main_v19 (F := Ideal) x0 x1) (val_main_v20 (F := Ideal) x0 x1)
      concatenates_S4096_S4096_S8192_d0 (ix1 r) rfl (ix1 (⟨r.val, h⟩ : Fin 4096)) (fun b => by match b with | ⟨0, _⟩ => rfl)
    have eR := concatenate_pair_apply_left (t := Cert.Loss.T8192) (s₁ := Cert.Loss.T4096) (s₂ := Cert.Loss.T4096) (0 : Fin 1)
      (Cert.Loss.halfNum (F := Ideal) (val_main_v7 (F := Ideal) x0) (val_main_v15 (F := Ideal) x1))
      (Cert.Loss.halfNum (F := Ideal) (val_main_v7 (F := Ideal) x0) (val_main_v15 (F := Ideal) x1))
      (by decide) (ix1 r) rfl (ix1 (⟨r.val, h⟩ : Fin 4096)) (fun b => by match b with | ⟨0, _⟩ => rfl)
    rw [eL, diag0]
    exact (halfNum_apply _ _ _).symm.trans eR.symm
  · have hk : r.val - 4096 < 4096 := by omega
    have eL := concatenate_pair_apply_right (t := S8192) (s₁ := S4096) (s₂ := S4096) (0 : Fin 1) (val_main_v19 (F := Ideal) x0 x1) (val_main_v20 (F := Ideal) x0 x1)
      concatenates_S4096_S4096_S8192_d0 (ix1 r) rfl rfl (ix1 (⟨r.val - 4096, hk⟩ : Fin 4096))
      (fun b hb => absurd (Fin.ext (by have hb1 : b.val < 1 := b.isLt; show b.val = 0; omega)) hb) (by show r.val - 4096 + 4096 = r.val; omega)
    have eR := concatenate_pair_apply_right (t := Cert.Loss.T8192) (s₁ := Cert.Loss.T4096) (s₂ := Cert.Loss.T4096) (0 : Fin 1)
      (Cert.Loss.halfNum (F := Ideal) (val_main_v7 (F := Ideal) x0) (val_main_v15 (F := Ideal) x1))
      (Cert.Loss.halfNum (F := Ideal) (val_main_v7 (F := Ideal) x0) (val_main_v15 (F := Ideal) x1))
      (by decide) (ix1 r) rfl rfl (ix1 (⟨r.val - 4096, hk⟩ : Fin 4096))
      (fun b hb => absurd (Fin.ext (by have hb1 : b.val < 1 := b.isLt; show b.val = 0; omega)) hb) (by show r.val - 4096 + 4096 = r.val; omega)
    rw [eL, diag1]
    exact (halfNum_apply _ _ _).symm.trans eR.symm

end Cert.ReferenceIdeal.RefValue

end
-- ==== Proof.lean ====
/-
  The contrastive loss of two batches of 4096 rows of 256 numbers, computed two ways.

  Both programs normalise every row to unit length (the same operations in the same order), stack the two batches into
  8192 rows, and return the mean over the rows r of −log(numerator r / denominator r), where the numerator of row r is
  exp(⟨row r, its partner row⟩ / (1/2)) and the denominator is the sum over all other rows k of exp of twice ⟨row r, row k⟩.

  The kernel computes the denominators tile by tile: a 16 x 4 grid of 512-row by 2048-column tiles, an accumulator per
  row tile that is reset at the first column tile, receives each tile's row sums (with the diagonal entries replaced by
  zero in the tiles that meet the diagonal), and is written out after the fourth column tile. The reference forms the whole
  8192 x 8192 matrix, multiplies by one minus the identity, and sums each row. Over the extended reals these agree:
  doubling is dividing by 1/2, one minus the indicator times an entry is the entry off the diagonal and zero on it, and
  a sum over 8192 columns is the sum of the four tiles' sums added one after the other from zero — only commutativity and
  associativity of addition, so no entry needs to be finite. The kernel's numerators are the row-by-row dot products of
  the two normalised batches; the reference reads the same numbers off the two off-diagonals of its matrix.

  Each program runs to the end without a fault and leaves its arguments as it found them; for the kernel this is a run
  of its 64 grid points in which the accumulator's contents are carried from point to point, the two input windows
  reading the one stacked array through half of its ownership each.
-/
import proofs.«154140_j43344809951557_2_alg».proof.Defs
import proofs.«154140_j43344809951557_2_alg».proof.Proof.Gen.Kernel
import proofs.«154140_j43344809951557_2_alg».proof.Proof.Gen.KernelIdeal
import proofs.«154140_j43344809951557_2_alg».proof.Proof.Gen.ReferenceIdeal
import proofs.«154140_j43344809951557_2_alg».proof.Proof.Gen.Pre_finite_inputs
import proofs.«154140_j43344809951557_2_alg».proof.Proof.Gen.ReferenceIdeal.Run
import proofs.«154140_j43344809951557_2_alg».proof.Proof.K.Main
import proofs.«154140_j43344809951557_2_alg».proof.Proof.KI.Host
import proofs.«154140_j43344809951557_2_alg».proof.Proof.RefNum
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to idealize the kernel. -/
theorem preserves : Cert.preserves_Kernel_KernelIdeal := trivial

open Cert.KernelIdeal.Hand in
/-- Over the extended reals the two programs return the same number. -/
theorem algebraic : Cert.algebraic_KernelIdeal_ReferenceIdeal := by
  intro m ρ m' ρ' _ hagree
  refine ⟨fun c => W3 m ρ c (Proc.devRef .tc Cert.KernelIdeal.main_v29), ?_, ?_⟩
  · exact (θ_run Cert.KernelIdeal.defs _ _).mono (fun _ h c =>
      ⟨h c _ (mem_uc Cert.KernelIdeal.main_v29 (by decide)),
       (h c _ (mem_uc Cert.KernelIdeal.main_arg0 (by decide))).trans (W3_main_arg0 m ρ c),
       (h c _ (mem_uc Cert.KernelIdeal.main_arg1 (by decide))).trans (W3_main_arg1 m ρ c)⟩) (run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, (hagree c).1, (hagree c).2]
    exact ((Cert.ReferenceIdeal.RefValue.result_loss _ _).trans
      (congrArg₂ (Cert.Loss.lossOf (F := Ideal)) (Cert.ReferenceIdeal.RefValue.num_eq _ _) (Cert.ReferenceIdeal.RefValue.den_eq _ _))).trans
      (kernel_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
